-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v87) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x768 : Shape := ⟨3, ![8, 4096, 768]⟩
abbrev S4096x768 : Shape := ⟨2, ![4096, 768]⟩
abbrev S768 : Shape := ⟨1, ![768]⟩
abbrev S768x2048 : Shape := ⟨2, ![768, 2048]⟩
abbrev S2048 : Shape := ⟨1, ![2048]⟩
abbrev S_ : Shape := ⟨0, ![]⟩

class Facts : Prop where
  bcast_S_S8x4096x768 : S_.BroadcastsInDim S8x4096x768 (![] : Fin 0 → Fin S8x4096x768.rank)
  reducesTo_S8x4096x768_S_d0_1_2 : S8x4096x768.ReducesTo [0, 1, 2] S_
  h_S_ : 0 < S_.numel
  bcast_S_S4096x768 : S_.BroadcastsInDim S4096x768 (![] : Fin 0 → Fin S4096x768.rank)
  reducesTo_S4096x768_S_d0_1 : S4096x768.ReducesTo [0, 1] S_
  bcast_S_S768 : S_.BroadcastsInDim S768 (![] : Fin 0 → Fin S768.rank)
  reducesTo_S768_S_d0 : S768.ReducesTo [0] S_
  bcast_S_S768x2048 : S_.BroadcastsInDim S768x2048 (![] : Fin 0 → Fin S768x2048.rank)
  reducesTo_S768x2048_S_d0_1 : S768x2048.ReducesTo [0, 1] S_
  bcast_S_S2048 : S_.BroadcastsInDim S2048 (![] : Fin 0 → Fin S2048.rank)
  reducesTo_S2048_S_d0 : S2048.ReducesTo [0] S_

variable [Facts]

def fn_part1 {F : FTy → Type} [FloatOps F] (main_arg4 : FVec F S2048 .f32) (main_v13 : IVec S_ 1) (main_v16 : IVec S768x2048 1) : IVec S_ 1 :=
  let main_c_5 : IVec S_ 1 := constantI S_ 1 1#1
  let main_v17 : IVec S_ 1 := (fun x v => Host.reduce IntOp.andi x v reducesTo_S768x2048_S_d0_1 h_S_) main_v16 main_c_5
  let main_v18 : IVec S_ 1 := andi main_v13 main_v17
  let main_v19 : FVec F S2048 .f32 := Host.absf main_arg4
  let main_cst_6 : FVec F S_ .f32 := constant S_ .f32 0x7F800000#32
  let main_v20 : FVec F S2048 .f32 := broadcastInDim S2048 ![] bcast_S_S2048 main_cst_6
  let main_v21 : IVec S2048 1 := cmpf .olt main_v19 main_v20
  let main_c_7 : IVec S_ 1 := constantI S_ 1 1#1
  let main_v22 : IVec S_ 1 := (fun x v => Host.reduce IntOp.andi x v reducesTo_S2048_S_d0 h_S_) main_v21 main_c_7
  let main_v23 : IVec S_ 1 := andi main_v18 main_v22
  main_v23

def fn {F : FTy → Type} [FloatOps F] (main_arg0 : FVec F S8x4096x768 .f32) (main_arg1 : FVec F S4096x768 .f32) (main_arg2 : FVec F S768 .f32) (main_arg3 : FVec F S768x2048 .f32) (main_arg4 : FVec F S2048 .f32) : IVec S_ 1 :=
  let main_v0 : FVec F S8x4096x768 .f32 := Host.absf main_arg0
  let main_cst : FVec F S_ .f32 := constant S_ .f32 0x7F800000#32
  let main_v1 : FVec F S8x4096x768 .f32 := broadcastInDim S8x4096x768 ![] bcast_S_S8x4096x768 main_cst
  let main_v2 : IVec S8x4096x768 1 := cmpf .olt main_v0 main_v1
  let main_c : IVec S_ 1 := constantI S_ 1 1#1
  let main_v3 : IVec S_ 1 := (fun x v => Host.reduce IntOp.andi x v reducesTo_S8x4096x768_S_d0_1_2 h_S_) main_v2 main_c
  let main_v4 : FVec F S4096x768 .f32 := Host.absf main_arg1
  let main_cst_0 : FVec F S_ .f32 := constant S_ .f32 0x7F800000#32
  let main_v5 : FVec F S4096x768 .f32 := broadcastInDim S4096x768 ![] bcast_S_S4096x768 main_cst_0
  let main_v6 : IVec S4096x768 1 := cmpf .olt main_v4 main_v5
  let main_c_1 : IVec S_ 1 := constantI S_ 1 1#1
  let main_v7 : IVec S_ 1 := (fun x v => Host.reduce IntOp.andi x v reducesTo_S4096x768_S_d0_1 h_S_) main_v6 main_c_1
  let main_v8 : IVec S_ 1 := andi main_v3 main_v7
  let main_v9 : FVec F S768 .f32 := Host.absf main_arg2
  let main_cst_2 : FVec F S_ .f32 := constant S_ .f32 0x7F800000#32
  let main_v10 : FVec F S768 .f32 := broadcastInDim S768 ![] bcast_S_S768 main_cst_2
  let main_v11 : IVec S768 1 := cmpf .olt main_v9 main_v10
  let main_c_3 : IVec S_ 1 := constantI S_ 1 1#1
  let main_v12 : IVec S_ 1 := (fun x v => Host.reduce IntOp.andi x v reducesTo_S768_S_d0 h_S_) main_v11 main_c_3
  let main_v13 : IVec S_ 1 := andi main_v8 main_v12
  let main_v14 : FVec F S768x2048 .f32 := Host.absf main_arg3
  let main_cst_4 : FVec F S_ .f32 := constant S_ .f32 0x7F800000#32
  let main_v15 : FVec F S768x2048 .f32 := broadcastInDim S768x2048 ![] bcast_S_S768x2048 main_cst_4
  let main_v16 : IVec S768x2048 1 := cmpf .olt main_v14 main_v15
  fn_part1 (F := F) main_arg4 main_v13 main_v16
-- ==== Kernel.lean ====
abbrev S8x4096x768 : Shape := ⟨3, ![8, 4096, 768]⟩
abbrev S4096x768 : Shape := ⟨2, ![4096, 768]⟩
abbrev S768 : Shape := ⟨1, ![768]⟩
abbrev S768x2048 : Shape := ⟨2, ![768, 2048]⟩
abbrev S2048 : Shape := ⟨1, ![2048]⟩
abbrev S32768x768 : Shape := ⟨2, ![32768, 768]⟩
abbrev S_ : Shape := ⟨0, ![]⟩
abbrev S768x4096 : Shape := ⟨2, ![768, 4096]⟩
abbrev S2048x768 : Shape := ⟨2, ![2048, 768]⟩
abbrev S1x768 : Shape := ⟨2, ![1, 768]⟩
abbrev S1x2048 : Shape := ⟨2, ![1, 2048]⟩
abbrev S256x768 : Shape := ⟨2, ![256, 768]⟩
abbrev S256 : Shape := ⟨1, ![256]⟩
abbrev S256x1 : Shape := ⟨2, ![256, 1]⟩
abbrev S256x4096 : Shape := ⟨2, ![256, 4096]⟩
abbrev S256x2048 : Shape := ⟨2, ![256, 2048]⟩

abbrev nBuf : Space → Nat
  | .hbm => 58
  | .vmem => 8
  | .smem => 0
  | _ => 0

abbrev bufTy : (tb : Table) → Fin (tcTables nBuf tb) → BufTy
  | .hbm, ⟨0, _⟩ => ⟨S8x4096x768, .f32⟩
  | .hbm, ⟨1, _⟩ => ⟨S4096x768, .f32⟩
  | .hbm, ⟨2, _⟩ => ⟨S768, .f32⟩
  | .hbm, ⟨3, _⟩ => ⟨S768x2048, .f32⟩
  | .hbm, ⟨4, _⟩ => ⟨S2048, .f32⟩
  | .hbm, ⟨5, _⟩ => ⟨S32768x768, .f32⟩
  | .hbm, ⟨6, _⟩ => ⟨S4096x768, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S4096x768, .f32⟩
  | .hbm, ⟨16, _⟩ => ⟨S4096x768, .f32⟩
  | .hbm, ⟨17, _⟩ => ⟨S4096x768, .f32⟩
  | .hbm, ⟨18, _⟩ => ⟨S_, .i32⟩
  | .hbm, ⟨19, _⟩ => ⟨S_, .i32⟩
  | .hbm, ⟨20, _⟩ => ⟨S_, .f32⟩
  | .hbm, ⟨21, _⟩ => ⟨S4096x768, .f32⟩
  | .hbm, ⟨22, _⟩ => ⟨S4096x768, .f32⟩
  | .hbm, ⟨23, _⟩ => ⟨S_, .f32⟩
  | .hbm, ⟨24, _⟩ => ⟨S4096x768, .f32⟩
  | .hbm, ⟨25, _⟩ => ⟨S4096x768, .f32⟩
  | .hbm, ⟨26, _⟩ => ⟨S4096x768, .f32⟩
  | .hbm, ⟨27, _⟩ => ⟨S4096x768, .f32⟩
  | .hbm, ⟨28, _⟩ => ⟨S768x2048, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S768x2048, .f32⟩
  | .hbm, ⟨38, _⟩ => ⟨S768x2048, .f32⟩
  | .hbm, ⟨39, _⟩ => ⟨S768x2048, .f32⟩
  | .hbm, ⟨40, _⟩ => ⟨S_, .i32⟩
  | .hbm, ⟨41, _⟩ => ⟨S_, .i32⟩
  | .hbm, ⟨42, _⟩ => ⟨S_, .f32⟩
  | .hbm, ⟨43, _⟩ => ⟨S768x2048, .f32⟩
  | .hbm, ⟨44, _⟩ => ⟨S768x2048, .f32⟩
  | .hbm, ⟨45, _⟩ => ⟨S_, .f32⟩
  | .hbm, ⟨46, _⟩ => ⟨S768x2048, .f32⟩
  | .hbm, ⟨47, _⟩ => ⟨S768x2048, .f32⟩
  | .hbm, ⟨48, _⟩ => ⟨S768x2048, .f32⟩
  | .hbm, ⟨49, _⟩ => ⟨S768x2048, .f32⟩
  | .hbm, ⟨50, _⟩ => ⟨S768x4096, .f32⟩
  | .hbm, ⟨51, _⟩ => ⟨S768x4096, .bf16⟩
  | .hbm, ⟨52, _⟩ => ⟨S2048x768, .f32⟩
  | .hbm, ⟨53, _⟩ => ⟨S2048x768, .bf16⟩
  | .hbm, ⟨54, _⟩ => ⟨S1x768, .f32⟩
  | .hbm, ⟨55, _⟩ => ⟨S1x2048, .f32⟩
  | .hbm, ⟨56, _⟩ => ⟨S32768x768, .f32⟩
  | .hbm, ⟨57, _⟩ => ⟨S8x4096x768, .f32⟩
  | .local _ .vmem, ⟨0, _⟩ => ⟨S256x768, .f32⟩
  | .local _ .vmem, ⟨1, _⟩ => ⟨S256x768, .f32⟩
  | .local _ .vmem, ⟨2, _⟩ => ⟨S768x4096, .bf16⟩
  | .local _ .vmem, ⟨3, _⟩ => ⟨S1x768, .f32⟩
  | .local _ .vmem, ⟨4, _⟩ => ⟨S2048x768, .bf16⟩
  | .local _ .vmem, ⟨5, _⟩ => ⟨S1x2048, .f32⟩
  | .local _ .vmem, ⟨6, _⟩ => ⟨S256x768, .f32⟩
  | .local _ .vmem, ⟨7, _⟩ => ⟨S256x768, .f32⟩
  | _, _ => ⟨S8x4096x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_cst_2 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_c : Ref sig .tc := ⟨.hbm, 18, rfl⟩
abbrev main_c_3 : Ref sig .tc := ⟨.hbm, 19, rfl⟩
abbrev main_call1_v0 : Ref sig .tc := ⟨.hbm, 20, rfl⟩
abbrev main_call1_v1 : Ref sig .tc := ⟨.hbm, 21, rfl⟩
abbrev main_call1_v2 : Ref sig .tc := ⟨.hbm, 22, rfl⟩
abbrev main_call1_v3 : Ref sig .tc := ⟨.hbm, 23, rfl⟩
abbrev main_call1_v4 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_cst_4 : Ref sig .tc := ⟨.hbm, 29, rfl⟩
abbrev main_v13 : Ref sig .tc := ⟨.hbm, 30, rfl⟩
abbrev main_cst_5 : Ref sig .tc := ⟨.hbm, 31, rfl⟩
abbrev main_v14 : Ref sig .tc := ⟨.hbm, 32, rfl⟩
abbrev main_cst_6 : Ref sig .tc := ⟨.hbm, 33, rfl⟩
abbrev main_v15 : Ref sig .tc := ⟨.hbm, 34, rfl⟩
abbrev main_cst_7 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_c_8 : Ref sig .tc := ⟨.hbm, 40, rfl⟩
abbrev main_c_9 : Ref sig .tc := ⟨.hbm, 41, rfl⟩
abbrev main_call3_v0 : Ref sig .tc := ⟨.hbm, 42, rfl⟩
abbrev main_call3_v1 : Ref sig .tc := ⟨.hbm, 43, rfl⟩
abbrev main_call3_v2 : Ref sig .tc := ⟨.hbm, 44, rfl⟩
abbrev main_call3_v3 : Ref sig .tc := ⟨.hbm, 45, rfl⟩
abbrev main_call3_v4 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x768 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S8x4096x768_S32768x768 : S8x4096x768.ShapeCasts S32768x768
  reducesTo_S4096x768_S_d0_1 : S4096x768.ReducesTo [0, 1] S_
  h_S_ : 0 < S_.numel
  bcast_S_S4096x768 : S_.BroadcastsInDim S4096x768 (![] : Fin 0 → Fin S4096x768.rank)
  reducesTo_S768x2048_S_d0_1 : S768x2048.ReducesTo [0, 1] S_
  bcast_S_S768x2048 : S_.BroadcastsInDim S768x2048 (![] : Fin 0 → Fin S768x2048.rank)
  transposes_S4096x768_S768x4096_1_0 : S4096x768.Transposes [1, 0] S768x4096
  bitsLt_bf16_f32 : FTy.bits .bf16 < FTy.bits .f32
  transposes_S768x2048_S2048x768_1_0 : S768x2048.Transposes [1, 0] S2048x768
  shapeCasts_S768_S1x768 : S768.ShapeCasts S1x768
  shapeCasts_S2048_S1x2048 : S2048.ShapeCasts S1x2048
  inb_S256x768_S256x768_0_0 : ∀ a, (![0, 0] : Fin 2 → Nat) a + S256x768.size a ≤ S256x768.size a
  h_S256x768 : 0 < S256x768.numel
  shapeCasts_S256x768_S256x768 : S256x768.ShapeCasts S256x768
  reduces_S256x768_S256 : S256x768.Reduces [1] S256
  shapeCasts_S256_S256x1 : S256.ShapeCasts S256x1
  broadcasts_S256x1_S256x768 : S256x1.Broadcasts S256x768
  inb_S1x768_S1x768_0_0 : ∀ a, (![0, 0] : Fin 2 → Nat) a + S1x768.size a ≤ S1x768.size a
  h_S1x768 : 0 < S1x768.numel
  shapeCasts_S1x768_S1x768 : S1x768.ShapeCasts S1x768
  broadcasts_S1x768_S256x768 : S1x768.Broadcasts S256x768
  inb_S768x4096_S768x4096_0_0 : ∀ a, (![0, 0] : Fin 2 → Nat) a + S768x4096.size a ≤ S768x4096.size a
  h_S768x4096 : 0 < S768x4096.numel
  shapeCasts_S768x4096_S768x4096 : S768x4096.ShapeCasts S768x4096
  slices_S256x4096_o0_0_S256x2048 : S256x4096.Slices ![0, 0] S256x2048
  slices_S256x4096_o0_2048_S256x2048 : S256x4096.Slices ![0, 2048] S256x2048
  reduces_S256x2048_S256 : S256x2048.Reduces [1] S256
  broadcasts_S256x1_S256x2048 : S256x1.Broadcasts S256x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S256x2048 : S1x2048.Broadcasts S256x2048
  inb_S2048x768_S2048x768_0_0 : ∀ a, (![0, 0] : Fin 2 → Nat) a + S2048x768.size a ≤ S2048x768.size a
  h_S2048x768 : 0 < S2048x768.numel
  shapeCasts_S2048x768_S2048x768 : S2048x768.ShapeCasts S2048x768
  shapeCasts_S32768x768_S8x4096x768 : S32768x768.ShapeCasts S8x4096x768
  dot_S256x768_S768x4096_S256x4096_1_0_0_1_n_n_wf : DotDims.WF S256x768 S768x4096 S256x4096 [1] [0] [0] [1] [] []
  dot_S256x2048_S2048x768_S256x768_1_0_0_1_n_n_wf : DotDims.WF S256x2048 S2048x768 S256x768 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x768.size a ≤ S32768x768.size a
  hwx0_0 : ∀ i : grid0.Coords, EltTy.bits .f32 = 32 ∨ (Rect.block (s := S32768x768) S256x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S768x4096.size a ≤ S768x4096.size a
  hwx0_1 : ∀ i : grid0.Coords, EltTy.bits .bf16 = 32 ∨ (Rect.block (s := S768x4096) S768x4096.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x768.size a ≤ S1x768.size a
  hwx0_2 : ∀ i : grid0.Coords, EltTy.bits .f32 = 32 ∨ (Rect.block (s := S1x768) S1x768.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2048x768.size a ≤ S2048x768.size a
  hwx0_3 : ∀ i : grid0.Coords, EltTy.bits .bf16 = 32 ∨ (Rect.block (s := S2048x768) S2048x768.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x2048.size a ≤ S1x2048.size a
  hwx0_4 : ∀ i : grid0.Coords, EltTy.bits .f32 = 32 ∨ (Rect.block (s := S1x2048) S1x2048.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x768.size a ≤ S32768x768.size a
  hwx0_5 : ∀ i : grid0.Coords, EltTy.bits .f32 = 32 ∨ (Rect.block (s := S32768x768) S256x768.size (cc0_transform_5 i) (hinb0_5 i)).WholeWords (EltTy.packing .f32)

variable [Facts₀]

def dot_S256x768_S768x4096_S256x4096_1_0_0_1_n_n : DotDims S256x768 S768x4096 S256x4096 where
  lhsContracting := [1]
  rhsContracting := [0]
  lhsNonContracting := [0]
  rhsNonContracting := [1]
  lhsBatch := []
  rhsBatch := []
  wf := dot_S256x768_S768x4096_S256x4096_1_0_0_1_n_n_wf
def dot_S256x2048_S2048x768_S256x768_1_0_0_1_n_n : DotDims S256x2048 S2048x768 S256x768 where
  lhsContracting := [1]
  rhsContracting := [0]
  lhsNonContracting := [0]
  rhsNonContracting := [1]
  lhsBatch := []
  rhsBatch := []
  wf := dot_S256x2048_S2048x768_S256x768_1_0_0_1_n_n_wf

abbrev win0_0 : Pipeline.Window sig grid0 :=
  Pipeline.Window.ofSpec (Memref.whole main_v0) S256x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v24) S768x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v27) S1x768.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v26) S2048x768.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v28) S1x2048.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v29) S256x768.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8x4096x768 : Shape := ⟨3, ![8, 4096, 768]⟩
abbrev S4096x768 : Shape := ⟨2, ![4096, 768]⟩
abbrev S768 : Shape := ⟨1, ![768]⟩
abbrev S768x2048 : Shape := ⟨2, ![768, 2048]⟩
abbrev S2048 : Shape := ⟨1, ![2048]⟩
abbrev S_ : Shape := ⟨0, ![]⟩
abbrev S8x4096 : Shape := ⟨2, ![8, 4096]⟩
abbrev S8x4096x1 : Shape := ⟨3, ![8, 4096, 1]⟩
abbrev S1x1x768 : Shape := ⟨3, ![1, 1, 768]⟩
abbrev S8x4096x4096 : Shape := ⟨3, ![8, 4096, 4096]⟩
abbrev S8x4096x2048 : Shape := ⟨3, ![8, 4096, 2048]⟩
abbrev S1x1x2048 : Shape := ⟨3, ![1, 1, 2048]⟩

abbrev nBuf : Space → Nat
  | .hbm => 149
  | .vmem => 0
  | .smem => 0
  | _ => 0

abbrev hbmTy0_0 (i : Nat) : BufTy := match i % 128 with
  | 0 => ⟨S8x4096x768, .f32⟩
  | 1 => ⟨S4096x768, .f32⟩
  | 2 => ⟨S768, .f32⟩
  | 3 => ⟨S768x2048, .f32⟩
  | 4 => ⟨S2048, .f32⟩
  | 5 => ⟨S8x4096x768, .f32⟩
  | 6 => ⟨S_, .f32⟩
  | 7 => ⟨S8x4096, .f32⟩
  | 8 => ⟨S8x4096x1, .f32⟩
  | 9 => ⟨S_, .f32⟩
  | 10 => ⟨S8x4096x1, .f32⟩
  | 11 => ⟨S8x4096x1, .f32⟩
  | 12 => ⟨S_, .f32⟩
  | 13 => ⟨S8x4096x1, .f32⟩
  | 14 => ⟨S8x4096x1, .f32⟩
  | 15 => ⟨S8x4096x1, .f32⟩
  | 16 => ⟨S8x4096x768, .f32⟩
  | 17 => ⟨S8x4096x768, .f32⟩
  | 18 => ⟨S1x1x768, .f32⟩
  | 19 => ⟨S8x4096x768, .f32⟩
  | 20 => ⟨S8x4096x768, .f32⟩
  | 21 => ⟨S8x4096x768, .f32⟩
  | 22 => ⟨S_, .f32⟩
  | 23 => ⟨S8x4096, .f32⟩
  | 24 => ⟨S8x4096x1, .f32⟩
  | 25 => ⟨S_, .f32⟩
  | 26 => ⟨S8x4096x1, .f32⟩
  | 27 => ⟨S8x4096x1, .f32⟩
  | 28 => ⟨S_, .f32⟩
  | 29 => ⟨S8x4096x1, .f32⟩
  | 30 => ⟨S8x4096x1, .f32⟩
  | 31 => ⟨S8x4096x768, .f32⟩
  | 32 => ⟨S8x4096x768, .f32⟩
  | 33 => ⟨S8x4096x768, .f32⟩
  | 34 => ⟨S_, .i32⟩
  | 35 => ⟨S_, .i32⟩
  | 36 => ⟨S_, .f32⟩
  | 37 => ⟨S8x4096x768, .f32⟩
  | 38 => ⟨S8x4096x768, .f32⟩
  | 39 => ⟨S_, .f32⟩
  | 40 => ⟨S8x4096x768, .f32⟩
  | 41 => ⟨S8x4096x768, .f32⟩
  | 42 => ⟨S8x4096x768, .f32⟩
  | 43 => ⟨S8x4096x768, .f32⟩
  | 44 => ⟨S8x4096x768, .f32⟩
  | 45 => ⟨S8x4096x768, .f32⟩
  | 46 => ⟨S4096x768, .f32⟩
  | 47 => ⟨S_, .f32⟩
  | 48 => ⟨S_, .f32⟩
  | 49 => ⟨S_, .f32⟩
  | 50 => ⟨S_, .f32⟩
  | 51 => ⟨S_, .f32⟩
  | 52 => ⟨S_, .f32⟩
  | 53 => ⟨S_, .f32⟩
  | 54 => ⟨S_, .f32⟩
  | 55 => ⟨S4096x768, .f32⟩
  | 56 => ⟨S4096x768, .f32⟩
  | 57 => ⟨S4096x768, .f32⟩
  | 58 => ⟨S_, .i32⟩
  | 59 => ⟨S_, .i32⟩
  | 60 => ⟨S_, .f32⟩
  | 61 => ⟨S4096x768, .f32⟩
  | 62 => ⟨S4096x768, .f32⟩
  | 63 => ⟨S_, .f32⟩
  | 64 => ⟨S4096x768, .f32⟩
  | 65 => ⟨S4096x768, .f32⟩
  | 66 => ⟨S4096x768, .f32⟩
  | 67 => ⟨S4096x768, .f32⟩
  | 68 => ⟨S4096x768, .f32⟩
  | 69 => ⟨S4096x768, .f32⟩
  | 70 => ⟨S8x4096x4096, .f32⟩
  | 71 => ⟨S8x4096x2048, .f32⟩
  | 72 => ⟨S8x4096x2048, .f32⟩
  | 73 => ⟨S8x4096x2048, .f32⟩
  | 74 => ⟨S8x4096x2048, .f32⟩
  | 75 => ⟨S_, .f32⟩
  | 76 => ⟨S8x4096x2048, .f32⟩
  | 77 => ⟨S8x4096x2048, .f32⟩
  | 78 => ⟨S_, .f32⟩
  | 79 => ⟨S8x4096x2048, .f32⟩
  | 80 => ⟨S8x4096x2048, .f32⟩
  | 81 => ⟨S8x4096x2048, .f32⟩
  | 82 => ⟨S8x4096x2048, .f32⟩
  | 83 => ⟨S8x4096x2048, .f32⟩
  | 84 => ⟨S_, .f32⟩
  | 85 => ⟨S8x4096, .f32⟩
  | 86 => ⟨S8x4096x1, .f32⟩
  | 87 => ⟨S_, .f32⟩
  | 88 => ⟨S8x4096x1, .f32⟩
  | 89 => ⟨S8x4096x1, .f32⟩
  | 90 => ⟨S_, .f32⟩
  | 91 => ⟨S8x4096x1, .f32⟩
  | 92 => ⟨S8x4096x1, .f32⟩
  | 93 => ⟨S8x4096x1, .f32⟩
  | 94 => ⟨S8x4096x2048, .f32⟩
  | 95 => ⟨S8x4096x2048, .f32⟩
  | 96 => ⟨S1x1x2048, .f32⟩
  | 97 => ⟨S8x4096x2048, .f32⟩
  | 98 => ⟨S8x4096x2048, .f32⟩
  | 99 => ⟨S8x4096x2048, .f32⟩
  | 100 => ⟨S_, .f32⟩
  | 101 => ⟨S8x4096, .f32⟩
  | 102 => ⟨S8x4096x1, .f32⟩
  | 103 => ⟨S_, .f32⟩
  | 104 => ⟨S8x4096x1, .f32⟩
  | 105 => ⟨S8x4096x1, .f32⟩
  | 106 => ⟨S_, .f32⟩
  | 107 => ⟨S8x4096x1, .f32⟩
  | 108 => ⟨S8x4096x1, .f32⟩
  | 109 => ⟨S8x4096x2048, .f32⟩
  | 110 => ⟨S8x4096x2048, .f32⟩
  | 111 => ⟨S8x4096x2048, .f32⟩
  | 112 => ⟨S_, .i32⟩
  | 113 => ⟨S_, .i32⟩
  | 114 => ⟨S_, .f32⟩
  | 115 => ⟨S8x4096x2048, .f32⟩
  | 116 => ⟨S8x4096x2048, .f32⟩
  | 117 => ⟨S_, .f32⟩
  | 118 => ⟨S8x4096x2048, .f32⟩
  | 119 => ⟨S8x4096x2048, .f32⟩
  | 120 => ⟨S8x4096x2048, .f32⟩
  | 121 => ⟨S8x4096x2048, .f32⟩
  | 122 => ⟨S8x4096x2048, .f32⟩
  | 123 => ⟨S8x4096x2048, .f32⟩
  | 124 => ⟨S768x2048, .f32⟩
  | 125 => ⟨S_, .f32⟩
  | 126 => ⟨S_, .f32⟩
  | 127 => ⟨S_, .f32⟩
  | _ => ⟨S8x4096x768, .f32⟩

abbrev hbmTy0_1 (i : Nat) : BufTy := match i % 128 with
  | 0 => ⟨S_, .f32⟩
  | 1 => ⟨S_, .f32⟩
  | 2 => ⟨S_, .f32⟩
  | 3 => ⟨S_, .f32⟩
  | 4 => ⟨S_, .f32⟩
  | 5 => ⟨S768x2048, .f32⟩
  | 6 => ⟨S768x2048, .f32⟩
  | 7 => ⟨S768x2048, .f32⟩
  | 8 => ⟨S_, .i32⟩
  | 9 => ⟨S_, .i32⟩
  | 10 => ⟨S_, .f32⟩
  | 11 => ⟨S768x2048, .f32⟩
  | 12 => ⟨S768x2048, .f32⟩
  | 13 => ⟨S_, .f32⟩
  | 14 => ⟨S768x2048, .f32⟩
  | 15 => ⟨S768x2048, .f32⟩
  | 16 => ⟨S768x2048, .f32⟩
  | 17 => ⟨S768x2048, .f32⟩
  | 18 => ⟨S768x2048, .f32⟩
  | 19 => ⟨S768x2048, .f32⟩
  | 20 => ⟨S8x4096x768, .f32⟩
  | _ => ⟨S8x4096x768, .f32⟩

abbrev hbmTy (i : Nat) : BufTy := match i / 128 with
  | 0 => hbmTy0_0 i
  | 1 => hbmTy0_1 i
  | _ => ⟨S8x4096x768, .f32⟩

abbrev bufTy : (tb : Table) → Fin (tcTables nBuf tb) → BufTy
  | .hbm, ⟨i, _⟩ => hbmTy i
  | _, _ => ⟨S8x4096x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_v17 : Ref sig .tc := ⟨.hbm, 27, rfl⟩
abbrev main_cst_4 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_c : Ref sig .tc := ⟨.hbm, 34, rfl⟩
abbrev main_c_5 : Ref sig .tc := ⟨.hbm, 35, rfl⟩
abbrev main_call1_v0 : Ref sig .tc := ⟨.hbm, 36, rfl⟩
abbrev main_call1_v1 : Ref sig .tc := ⟨.hbm, 37, rfl⟩
abbrev main_call1_v2 : Ref sig .tc := ⟨.hbm, 38, rfl⟩
abbrev main_call1_v3 : Ref sig .tc := ⟨.hbm, 39, rfl⟩
abbrev main_call1_v4 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_cst_6 : Ref sig .tc := ⟨.hbm, 47, rfl⟩
abbrev main_v29 : Ref sig .tc := ⟨.hbm, 48, rfl⟩
abbrev main_cst_7 : Ref sig .tc := ⟨.hbm, 49, rfl⟩
abbrev main_v30 : Ref sig .tc := ⟨.hbm, 50, rfl⟩
abbrev main_cst_8 : Ref sig .tc := ⟨.hbm, 51, rfl⟩
abbrev main_v31 : Ref sig .tc := ⟨.hbm, 52, rfl⟩
abbrev main_cst_9 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_c_10 : Ref sig .tc := ⟨.hbm, 58, rfl⟩
abbrev main_c_11 : Ref sig .tc := ⟨.hbm, 59, rfl⟩
abbrev main_call3_v0 : Ref sig .tc := ⟨.hbm, 60, rfl⟩
abbrev main_call3_v1 : Ref sig .tc := ⟨.hbm, 61, rfl⟩
abbrev main_call3_v2 : Ref sig .tc := ⟨.hbm, 62, rfl⟩
abbrev main_call3_v3 : Ref sig .tc := ⟨.hbm, 63, rfl⟩
abbrev main_call3_v4 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_call4_v0 : Ref sig .tc := ⟨.hbm, 73, rfl⟩
abbrev main_call4_v1 : Ref sig .tc := ⟨.hbm, 74, rfl⟩
abbrev main_call4_cst : Ref sig .tc := ⟨.hbm, 75, rfl⟩
abbrev main_call4_v2 : Ref sig .tc := ⟨.hbm, 76, rfl⟩
abbrev main_call4_v3 : Ref sig .tc := ⟨.hbm, 77, rfl⟩
abbrev main_call4_cst_0 : Ref sig .tc := ⟨.hbm, 78, rfl⟩
abbrev main_call4_v4 : Ref sig .tc := ⟨.hbm, 79, rfl⟩
abbrev main_call4_v5 : Ref sig .tc := ⟨.hbm, 80, rfl⟩
abbrev main_v44 : Ref sig .tc := ⟨.hbm, 81, rfl⟩
abbrev main_v45 : Ref sig .tc := ⟨.hbm, 82, rfl⟩
abbrev main_v46 : Ref sig .tc := ⟨.hbm, 83, rfl⟩
abbrev main_cst_12 : Ref sig .tc := ⟨.hbm, 84, rfl⟩
abbrev main_v47 : Ref sig .tc := ⟨.hbm, 85, rfl⟩
abbrev main_v48 : Ref sig .tc := ⟨.hbm, 86, rfl⟩
abbrev main_cst_13 : Ref sig .tc := ⟨.hbm, 87, rfl⟩
abbrev main_v49 : Ref sig .tc := ⟨.hbm, 88, rfl⟩
abbrev main_v50 : Ref sig .tc := ⟨.hbm, 89, rfl⟩
abbrev main_cst_14 : Ref sig .tc := ⟨.hbm, 90, rfl⟩
abbrev main_v51 : Ref sig .tc := ⟨.hbm, 91, rfl⟩
abbrev main_v52 : Ref sig .tc := ⟨.hbm, 92, rfl⟩
abbrev main_v53 : Ref sig .tc := ⟨.hbm, 93, rfl⟩
abbrev main_v54 : Ref sig .tc := ⟨.hbm, 94, rfl⟩
abbrev main_v55 : Ref sig .tc := ⟨.hbm, 95, rfl⟩
abbrev main_v56 : Ref sig .tc := ⟨.hbm, 96, rfl⟩
abbrev main_v57 : Ref sig .tc := ⟨.hbm, 97, rfl⟩
abbrev main_v58 : Ref sig .tc := ⟨.hbm, 98, rfl⟩
abbrev main_v59 : Ref sig .tc := ⟨.hbm, 99, rfl⟩
abbrev main_cst_15 : Ref sig .tc := ⟨.hbm, 100, rfl⟩
abbrev main_v60 : Ref sig .tc := ⟨.hbm, 101, rfl⟩
abbrev main_v61 : Ref sig .tc := ⟨.hbm, 102, rfl⟩
abbrev main_cst_16 : Ref sig .tc := ⟨.hbm, 103, rfl⟩
abbrev main_v62 : Ref sig .tc := ⟨.hbm, 104, rfl⟩
abbrev main_v63 : Ref sig .tc := ⟨.hbm, 105, rfl⟩
abbrev main_cst_17 : Ref sig .tc := ⟨.hbm, 106, rfl⟩
abbrev main_v64 : Ref sig .tc := ⟨.hbm, 107, rfl⟩
abbrev main_v65 : Ref sig .tc := ⟨.hbm, 108, rfl⟩
abbrev main_v66 : Ref sig .tc := ⟨.hbm, 109, rfl⟩
abbrev main_v67 : Ref sig .tc := ⟨.hbm, 110, rfl⟩
abbrev main_v68 : Ref sig .tc := ⟨.hbm, 111, rfl⟩
abbrev main_c_18 : Ref sig .tc := ⟨.hbm, 112, rfl⟩
abbrev main_c_19 : Ref sig .tc := ⟨.hbm, 113, rfl⟩
abbrev main_call6_v0 : Ref sig .tc := ⟨.hbm, 114, rfl⟩
abbrev main_call6_v1 : Ref sig .tc := ⟨.hbm, 115, rfl⟩
abbrev main_call6_v2 : Ref sig .tc := ⟨.hbm, 116, rfl⟩
abbrev main_call6_v3 : Ref sig .tc := ⟨.hbm, 117, rfl⟩
abbrev main_call6_v4 : Ref sig .tc := ⟨.hbm, 118, rfl⟩
abbrev main_v69 : Ref sig .tc := ⟨.hbm, 119, rfl⟩
abbrev main_v70 : Ref sig .tc := ⟨.hbm, 120, rfl⟩
abbrev main_v71 : Ref sig .tc := ⟨.hbm, 121, rfl⟩
abbrev main_v72 : Ref sig .tc := ⟨.hbm, 122, rfl⟩
abbrev main_v73 : Ref sig .tc := ⟨.hbm, 123, rfl⟩
abbrev main_v74 : Ref sig .tc := ⟨.hbm, 124, rfl⟩
abbrev main_cst_20 : Ref sig .tc := ⟨.hbm, 125, rfl⟩
abbrev main_v75 : Ref sig .tc := ⟨.hbm, 126, rfl⟩
abbrev main_cst_21 : Ref sig .tc := ⟨.hbm, 127, rfl⟩
abbrev main_v76 : Ref sig .tc := ⟨.hbm, 128, rfl⟩
abbrev main_cst_22 : Ref sig .tc := ⟨.hbm, 129, rfl⟩
abbrev main_v77 : Ref sig .tc := ⟨.hbm, 130, rfl⟩
abbrev main_cst_23 : Ref sig .tc := ⟨.hbm, 131, rfl⟩
abbrev main_v78 : Ref sig .tc := ⟨.hbm, 132, rfl⟩
abbrev main_v79 : Ref sig .tc := ⟨.hbm, 133, rfl⟩
abbrev main_v80 : Ref sig .tc := ⟨.hbm, 134, rfl⟩
abbrev main_v81 : Ref sig .tc := ⟨.hbm, 135, rfl⟩
abbrev main_c_24 : Ref sig .tc := ⟨.hbm, 136, rfl⟩
abbrev main_c_25 : Ref sig .tc := ⟨.hbm, 137, rfl⟩
abbrev main_call8_v0 : Ref sig .tc := ⟨.hbm, 138, rfl⟩
abbrev main_call8_v1 : Ref sig .tc := ⟨.hbm, 139, rfl⟩
abbrev main_call8_v2 : Ref sig .tc := ⟨.hbm, 140, rfl⟩
abbrev main_call8_v3 : Ref sig .tc := ⟨.hbm, 141, rfl⟩
abbrev main_call8_v4 : Ref sig .tc := ⟨.hbm, 142, rfl⟩
abbrev main_v82 : Ref sig .tc := ⟨.hbm, 143, rfl⟩
abbrev main_v83 : Ref sig .tc := ⟨.hbm, 144, rfl⟩
abbrev main_v84 : Ref sig .tc := ⟨.hbm, 145, rfl⟩
abbrev main_v85 : Ref sig .tc := ⟨.hbm, 146, rfl⟩
abbrev main_v86 : Ref sig .tc := ⟨.hbm, 147, rfl⟩
abbrev main_v87 : Ref sig .tc := ⟨.hbm, 148, rfl⟩

abbrev nD : Nat := 1
abbrev τ : Topo := Topo.v7x

variable {F : FTy → Type} [FloatOps F]

class Facts₀ : Prop where
  reducesTo_S8x4096x768_S8x4096_d2 : S8x4096x768.ReducesTo [2] S8x4096
  h_S_ : 0 < S_.numel
  bcast_S8x4096_S8x4096x1_0_1 : S8x4096.BroadcastsInDim S8x4096x1 (![0, 1] : Fin 2 → Fin S8x4096x1.rank)
  bcast_S_S8x4096x1 : S_.BroadcastsInDim S8x4096x1 (![] : Fin 0 → Fin S8x4096x1.rank)
  bcast_S8x4096x1_S8x4096x768_0_1_2 : S8x4096x1.BroadcastsInDim S8x4096x768 (![0, 1, 2] : Fin 3 → Fin S8x4096x768.rank)
  bcast_S768_S1x1x768_2 : S768.BroadcastsInDim S1x1x768 (![2] : Fin 1 → Fin S1x1x768.rank)
  bcast_S1x1x768_S8x4096x768_0_1_2 : S1x1x768.BroadcastsInDim S8x4096x768 (![0, 1, 2] : Fin 3 → Fin S8x4096x768.rank)
  bcast_S_S8x4096x768 : S_.BroadcastsInDim S8x4096x768 (![] : Fin 0 → Fin S8x4096x768.rank)
  reducesTo_S4096x768_S_d0_1 : S4096x768.ReducesTo [0, 1] S_
  bcast_S_S4096x768 : S_.BroadcastsInDim S4096x768 (![] : Fin 0 → Fin S4096x768.rank)
  slices_S8x4096x4096_S8x4096x2048_0_0_0 : S8x4096x4096.Slices ![0, 0, 0] S8x4096x2048
  slices_S8x4096x4096_S8x4096x2048_0_0_2048 : S8x4096x4096.Slices ![0, 0, 2048] S8x4096x2048
  bcast_S_S8x4096x2048 : S_.BroadcastsInDim S8x4096x2048 (![] : Fin 0 → Fin S8x4096x2048.rank)
  reducesTo_S8x4096x2048_S8x4096_d2 : S8x4096x2048.ReducesTo [2] S8x4096
  bcast_S8x4096x1_S8x4096x2048_0_1_2 : S8x4096x1.BroadcastsInDim S8x4096x2048 (![0, 1, 2] : Fin 3 → Fin S8x4096x2048.rank)
  bcast_S2048_S1x1x2048_2 : S2048.BroadcastsInDim S1x1x2048 (![2] : Fin 1 → Fin S1x1x2048.rank)
  bcast_S1x1x2048_S8x4096x2048_0_1_2 : S1x1x2048.BroadcastsInDim S8x4096x2048 (![0, 1, 2] : Fin 3 → Fin S8x4096x2048.rank)
  reducesTo_S768x2048_S_d0_1 : S768x2048.ReducesTo [0, 1] S_
  bcast_S_S768x2048 : S_.BroadcastsInDim S768x2048 (![] : Fin 0 → Fin S768x2048.rank)
  dot_S8x4096x768_S4096x768_S8x4096x4096_2_1_01_0_n_n_wf : DotDims.WF S8x4096x768 S4096x768 S8x4096x4096 [2] [1] [0, 1] [0] [] []
  dot_S8x4096x2048_S768x2048_S8x4096x768_2_1_01_0_n_n_wf : DotDims.WF S8x4096x2048 S768x2048 S8x4096x768 [2] [1] [0, 1] [0] [] []

variable [Facts₀]

def dot_S8x4096x768_S4096x768_S8x4096x4096_2_1_01_0_n_n : DotDims S8x4096x768 S4096x768 S8x4096x4096 where
  lhsContracting := [2]
  rhsContracting := [1]
  lhsNonContracting := [0, 1]
  rhsNonContracting := [0]
  lhsBatch := []
  rhsBatch := []
  wf := dot_S8x4096x768_S4096x768_S8x4096x4096_2_1_01_0_n_n_wf
def dot_S8x4096x2048_S768x2048_S8x4096x768_2_1_01_0_n_n : DotDims S8x4096x2048 S768x2048 S8x4096x768 where
  lhsContracting := [2]
  rhsContracting := [1]
  lhsNonContracting := [0, 1]
  rhsNonContracting := [0]
  lhsBatch := []
  rhsBatch := []
  wf := dot_S8x4096x2048_S768x2048_S8x4096x768_2_1_01_0_n_n_wf

class Facts : Prop extends Facts₀ where

variable [Facts]
-- ==== Proof.BitLinear.lean ====
/-
  The arithmetic of a two-layer gated MLP whose linear layers quantise both operands, written once over the
  extended reals, for any finite index types.

  A row `v` is RMS-normalised and scaled by a gain: `v d · (Σ_k v k² / n + ε)^(-1/2) · g d`. A normalised row `u` is
  fake-quantised to eight bits with one scale per row: with `a = max(max_k |u k|, t)` and `σ = c / a`, entry `d`
  becomes `clip(round(u d · σ), lo, hi) / σ`, the rounding to nearest with ties to even. A weight entry is
  fake-quantised to three levels with one scale `s` for its whole tensor: `clip(round(w · s), lo', hi') / s`.

  One layer multiplies the quantised row by the quantised weights. It is written here in two ways. DIRECTLY, the
  product is of the quantised values themselves. THROUGH THE STRAIGHT-THROUGH ESTIMATOR each quantised value `q` of
  an unquantised `a` enters as `a + (q - a)`: on the extended reals that is `q` when `a` is a real number, and
  not otherwise (at `a = +∞` it is `-∞`), which is why the two ways agree on finite inputs only.

  Between the layers the first layer's outputs are paired (an "up" half and a "gate" half) and combined as
  `gate · logistic(gate) · up`.
-/
import Idealize.ShloMosaic.PureOps.Ideal
import Idealize.ShloMosaic.Lib.ValueIdx

noncomputable section

namespace Cert.BitLinear

open Idealize.ShloMosaic

/-- Rounding to the nearest integer, ties to the even one; the infinities stay. -/
def rne (x : EReal) : EReal := Ideal.liftRound Ideal.roundHalfEven x

/-- The absolute value on the extended reals: the larger of `x` and `-x`. -/
def mag (x : EReal) : EReal := max x (-x)

/-- The numbers one layer is parametrised by: the row length `n` as a number, the two small positive offsets
    `ε` (under the root) and `t` (the floor of a row's magnitude), the numerator `c` of a row's scale, the
    clipping bounds `lo ≤ hi` of a row entry and `lo' ≤ hi'` of a weight entry. -/
structure Consts where
  n : EReal
  ε : EReal
  t : EReal
  c : EReal
  lo : EReal
  hi : EReal
  lo' : EReal
  hi' : EReal

section Row

variable {ι : Type} [Fintype ι]

/-- Entry `d` of the RMS-normalised row `v` under the gain `g`. -/
def rms (n ε : EReal) (v g : ι → EReal) (d : ι) : EReal :=
  v d * Ideal.rsqrt (Ideal.div (∑ k, v k * v k) n + ε) * g d

/-- The largest magnitude in the row `u`, as a fold of `max` from `-∞`. -/
def rowMax (u : ι → EReal) : EReal := (Finset.univ : Finset ι).fold max ⊥ fun k => mag (u k)

/-- The scale of the row `u`: `c / max(rowMax u, t)`. -/
def rowScale (c t : EReal) (u : ι → EReal) : EReal := Ideal.div c (max (rowMax u) t)

/-- Entry `d` of the row `u` fake-quantised with the row's own scale. -/
def rowQuant (lo hi c t : EReal) (u : ι → EReal) (d : ι) : EReal :=
  Ideal.div (min hi (max lo (rne (u d * rowScale c t u)))) (rowScale c t u)

end Row

/-- A weight entry fake-quantised with its tensor's scale `s`. -/
def weightQuant (lo' hi' s w : EReal) : EReal := Ideal.div (min hi' (max lo' (rne (w * s)))) s

section Layer

variable {ι ο : Type} [Fintype ι]

/-- The normalised row of one layer. -/
def normed (K : Consts) (x g : ι → EReal) : ι → EReal := rms K.n K.ε x g

/-- Output `o` of one layer, the product taken of the quantised values directly. -/
def layerDirect (K : Consts) (s : EReal) (x g : ι → EReal) (w : ο → ι → EReal) (o : ο) : EReal :=
  ∑ d, rowQuant K.lo K.hi K.c K.t (normed K x g) d * weightQuant K.lo' K.hi' s (w o d)

/-- Output `o` of one layer, each quantised value entering as `a + (q - a)` around its unquantised `a`. -/
def layerSte (K : Consts) (s : EReal) (x g : ι → EReal) (w : ο → ι → EReal) (o : ο) : EReal :=
  ∑ d, (normed K x g d + (rowQuant K.lo K.hi K.c K.t (normed K x g) d - normed K x g d))
      * (w o d + (weightQuant K.lo' K.hi' s (w o d) - w o d))

end Layer

/-- The gate: `gate · logistic(gate) · up`. -/
def swiglu (up gate : EReal) : EReal := gate * Ideal.logistic gate * up

section Net

variable {ι κ ο : Type} [Fintype ι] [Fintype κ]

/-- Output `c` of the two layers with the gate between them, products taken directly. The first layer has
    `κ` "up" outputs and `κ` "gate" outputs, at `upIx j` and `gateIx j` of its output index type `ο₁`. -/
def netDirect {ο₁ : Type} (K₁ K₂ : Consts) (s₁ s₂ : EReal) (upIx gateIx : κ → ο₁)
    (x g₁ : ι → EReal) (w₁ : ο₁ → ι → EReal) (g₂ : κ → EReal) (w₂ : ο → κ → EReal) (c : ο) : EReal :=
  layerDirect K₂ s₂
    (fun j => swiglu (layerDirect K₁ s₁ x g₁ w₁ (upIx j)) (layerDirect K₁ s₁ x g₁ w₁ (gateIx j))) g₂ w₂ c

/-- The same through the straight-through estimator in both layers. -/
def netSte {ο₁ : Type} (K₁ K₂ : Consts) (s₁ s₂ : EReal) (upIx gateIx : κ → ο₁)
    (x g₁ : ι → EReal) (w₁ : ο₁ → ι → EReal) (g₂ : κ → EReal) (w₂ : ο → κ → EReal) (c : ο) : EReal :=
  layerSte K₂ s₂
    (fun j => swiglu (layerSte K₁ s₁ x g₁ w₁ (upIx j)) (layerSte K₁ s₁ x g₁ w₁ (gateIx j))) g₂ w₂ c

end Net

/-! ## The network of this kernel: its numbers, its index types, its result at one entry -/

section Instance

open Idealize.ShloMosaic.ValueIdx

/-- The first layer's numbers: rows of length 768 (`0x44400000`), ε (`0x358637BD`) under the root, the floor
    `0x3727C5AC` of a row's magnitude, 127 (`0x42FE0000`) over it; row entries clipped to [-128, 127], weight
    entries to [-1, 1]. The offsets and the counts stay the words both programs carry; the clipping bounds are
    the real numbers, which one program writes as float words and the other as integers converted. -/
def K768 : Consts where
  n := Ideal.ofBits .f32 0x44400000#32
  ε := Ideal.ofBits .f32 0x358637BD#32
  t := Ideal.ofBits .f32 0x3727C5AC#32
  c := Ideal.ofBits .f32 0x42FE0000#32
  lo := ((-128 : ℝ) : EReal)
  hi := ((127 : ℝ) : EReal)
  lo' := ((-1 : ℝ) : EReal)
  hi' := ((1 : ℝ) : EReal)

/-- The second layer's numbers: the same with rows of length 2048 (`0x45000000`). -/
def K2048 : Consts := { K768 with n := Ideal.ofBits .f32 0x45000000#32 }

/-- The scale of a whole weight tensor with `nw` entries (the count as a float word): one over the larger of
    the mean magnitude and the floor `0x3727C5AC`; the sum starts from the zero word, as a host sum does. -/
def tensorScale {σ : Type} [Fintype σ] (nw : BitVec (FTy.f32).bits) (w : σ → EReal) : EReal :=
  Ideal.div (Ideal.ofBits .f32 0x3F800000#32)
    (max (Ideal.div (Ideal.ofBits .f32 0x00000000#32 + ∑ j, mag (w j)) (Ideal.ofBits .f32 nw))
      (Ideal.ofBits .f32 0x3727C5AC#32))

/-- The "up" half of the first layer's 4096 outputs: the first 2048. -/
def upIx (j : Fin 2048) : Fin 4096 := ⟨j.val, by omega⟩
/-- The "gate" half: the last 2048. -/
def gateIx (j : Fin 2048) : Fin 4096 := ⟨2048 + j.val, by omega⟩

variable (X : (⟨3, ![8, 4096, 768]⟩ : Shape).Idx → EReal) (Win : (⟨2, ![4096, 768]⟩ : Shape).Idx → EReal)
  (Gin : (⟨1, ![768]⟩ : Shape).Idx → EReal) (Wout : (⟨2, ![768, 2048]⟩ : Shape).Idx → EReal)
  (Gout : (⟨1, ![2048]⟩ : Shape).Idx → EReal)

/-- Entry (b, s, c) of the result, products taken directly: token (b, s)'s row of `X` through both layers. -/
def directAt (b : Fin 8) (s : Fin 4096) (c : Fin 768) : EReal :=
  netDirect K768 K2048 (tensorScale 0x4A400000#32 Win) (tensorScale 0x49C00000#32 Wout) upIx gateIx
    (fun d : Fin 768 => X (ix3 b s d)) (fun d : Fin 768 => Gin (ix1 d))
    (fun (o : Fin 4096) (d : Fin 768) => Win (ix2 o d)) (fun k : Fin 2048 => Gout (ix1 k))
    (fun (c' : Fin 768) (k : Fin 2048) => Wout (ix2 c' k)) c

/-- The same entry through the straight-through estimator. -/
def steAt (b : Fin 8) (s : Fin 4096) (c : Fin 768) : EReal :=
  netSte K768 K2048 (tensorScale 0x4A400000#32 Win) (tensorScale 0x49C00000#32 Wout) upIx gateIx
    (fun d : Fin 768 => X (ix3 b s d)) (fun d : Fin 768 => Gin (ix1 d))
    (fun (o : Fin 4096) (d : Fin 768) => Win (ix2 o d)) (fun k : Fin 2048 => Gout (ix1 k))
    (fun (c' : Fin 768) (k : Fin 2048) => Wout (ix2 c' k)) c

/-- The whole result array, products taken directly: entry `i` is `directAt` at `i`'s three coordinates. -/
def resultArr (i : (⟨3, ![8, 4096, 768]⟩ : Shape).Idx) : EReal :=
  directAt X Win Gin Wout Gout (i 0) (i 1) (i 2)

theorem resultArr_ix3 (b : Fin 8) (s : Fin 4096) (c : Fin 768) :
    resultArr X Win Gin Wout Gout (ix3 b s c) = directAt X Win Gin Wout Gout b s c := rfl

end Instance

end Cert.BitLinear

end
-- ==== Proof.LibRealSum.lean ====
/-
  Real numbers inside the extended reals: they are closed under sums, products, maxima and finite sums,
  and on them a weighted sum of matrix-vector products may be exchanged with the matrix-vector product of
  the weighted sums. A sum over 136 consecutive coordinates is also split into blocks of 64, 64 and 8.
-/
import Idealize.ShloMosaic.PureOps.Ideal

noncomputable section

namespace Cert.RealSum

/-- An extended real that is a real number. -/
def IsReal (x : EReal) : Prop := ∃ r : ℝ, x = (r : EReal)

/-- Zero is a real number. -/
theorem isReal_zero : IsReal 0 := ⟨0, EReal.coe_zero.symm⟩

/-- The image of a real number in the extended reals is a real number. -/
theorem isReal_coe (r : ℝ) : IsReal (r : EReal) := ⟨r, rfl⟩

/-- The sum of two real numbers is a real number. -/
theorem IsReal.add {x y : EReal} (hx : IsReal x) (hy : IsReal y) : IsReal (x + y) := by
  obtain ⟨p, rfl⟩ := hx
  obtain ⟨q, rfl⟩ := hy
  exact ⟨p + q, (EReal.coe_add p q).symm⟩

/-- The product of two real numbers is a real number. -/
theorem IsReal.mul {x y : EReal} (hx : IsReal x) (hy : IsReal y) : IsReal (x * y) := by
  obtain ⟨p, rfl⟩ := hx
  obtain ⟨q, rfl⟩ := hy
  exact ⟨p * q, (EReal.coe_mul p q).symm⟩

/-- The larger of two real numbers is a real number, because it is one of the two. -/
theorem IsReal.max {x y : EReal} (hx : IsReal x) (hy : IsReal y) : IsReal (max x y) := by
  rcases max_choice x y with h | h
  · rw [h]; exact hx
  · rw [h]; exact hy

/-- A finite sum of real numbers is a real number. -/
theorem isReal_sum {ι : Type} (s : Finset ι) (f : ι → EReal) (h : ∀ e ∈ s, IsReal (f e)) :
    IsReal (∑ e ∈ s, f e) :=
  Finset.sum_induction f IsReal (fun _ _ hx hy => hx.add hy) isReal_zero h

/-- An extended real that is neither plus nor minus infinity is a real number. -/
theorem isReal_of_ne_top_of_ne_bot {x : EReal} (ht : x ≠ ⊤) (hb : x ≠ ⊥) : IsReal x :=
  ⟨x.toReal, (EReal.coe_toReal ht hb).symm⟩

/-- A nonnegative extended real other than plus infinity is a real number: being at least zero, it is
    not minus infinity either. -/
theorem isReal_of_nonneg_of_ne_top {x : EReal} (h0 : 0 ≤ x) (ht : x ≠ ⊤) : IsReal x :=
  isReal_of_ne_top_of_ne_bot ht (lt_of_lt_of_le EReal.bot_lt_zero h0).ne'

/-- The image of a finite sum of real numbers is the sum of the images. -/
private theorem coe_sum {ι : Type} (s : Finset ι) (g : ι → ℝ) :
    ((∑ e ∈ s, g e : ℝ) : EReal) = ∑ e ∈ s, (g e : EReal) := by
  classical
  induction s using Finset.induction_on with
  | empty => rw [Finset.sum_empty, Finset.sum_empty, EReal.coe_zero]
  | insert b t hb ih => rw [Finset.sum_insert hb, Finset.sum_insert hb, EReal.coe_add, ih]

/-- The exchange law over the real numbers: both sides expand to the double sum of `a e k * w k * c e`,
    summed in the two possible orders. -/
private theorem commute_real {ι κ : Type} [Fintype κ] (s : Finset ι) (a : ι → κ → ℝ) (w : κ → ℝ)
    (c : ι → ℝ) :
    ∑ e ∈ s, (∑ k, a e k * w k) * c e = ∑ k, (∑ e ∈ s, a e k * c e) * w k := by
  simp only [Finset.sum_mul]
  rw [Finset.sum_comm]
  refine Finset.sum_congr rfl (fun k _ => Finset.sum_congr rfl (fun e _ => ?_))
  exact mul_right_comm (a e k) (w k) (c e)

/-- THE COMMUTE LAW: a weighted sum over edges of matrix-vector products is the matrix-vector product of
    the weighted sums, when every entry is real. Both edge sums start from zero, as a scatter-add into a
    zero array does. -/
theorem commute {ι κ : Type} [Fintype κ] (s : Finset ι) (a : ι → κ → EReal) (w : κ → EReal)
    (c : ι → EReal) (ha : ∀ e k, IsReal (a e k)) (hw : ∀ k, IsReal (w k)) (hc : ∀ e, IsReal (c e)) :
    (0 + ∑ e ∈ s, (∑ k, a e k * w k) * c e) = ∑ k, (0 + ∑ e ∈ s, a e k * c e) * w k := by
  choose a' ha' using ha
  choose w' hw' using hw
  choose c' hc' using hc
  -- every entry is the image of a real number, so both sides are images of real expressions
  have hL : (0 + ∑ e ∈ s, (∑ k, a e k * w k) * c e)
      = ((∑ e ∈ s, (∑ k, a' e k * w' k) * c' e : ℝ) : EReal) := by
    rw [zero_add, coe_sum]
    refine Finset.sum_congr rfl (fun e _ => ?_)
    rw [EReal.coe_mul, coe_sum, hc' e]
    congr 1
    refine Finset.sum_congr rfl (fun k _ => ?_)
    rw [EReal.coe_mul, ha' e k, hw' k]
  have hR : (∑ k, (0 + ∑ e ∈ s, a e k * c e) * w k)
      = ((∑ k, (∑ e ∈ s, a' e k * c' e) * w' k : ℝ) : EReal) := by
    rw [coe_sum]
    refine Finset.sum_congr rfl (fun k _ => ?_)
    rw [zero_add, EReal.coe_mul, coe_sum, hw' k]
    congr 1
    refine Finset.sum_congr rfl (fun e _ => ?_)
    rw [EReal.coe_mul, ha' e k, hc' e]
  rw [hL, hR, commute_real s a' w' c']

/-- A sum over 136 coordinates split as 64 + 64 + 8 consecutive coordinates, grouped
    (first + second) + third. -/
theorem sum_split_136 (f : Fin 136 → EReal) :
    ∑ q : Fin 136, f q
      = (∑ q : Fin 64, f ⟨q.val, by omega⟩ + ∑ q : Fin 64, f ⟨64 + q.val, by omega⟩)
        + ∑ q : Fin 8, f ⟨128 + q.val, by omega⟩ := by
  have h1 : ∑ q : Fin (64 + 64 + 8), f q
      = ∑ q : Fin (64 + 64), f (Fin.castAdd 8 q) + ∑ q : Fin 8, f (Fin.natAdd (64 + 64) q) :=
    Fin.sum_univ_add (fun q : Fin (64 + 64 + 8) => f q)
  have h2 : ∑ q : Fin (64 + 64), f (Fin.castAdd 8 q)
      = ∑ q : Fin 64, f (Fin.castAdd 8 (Fin.castAdd 64 q))
        + ∑ q : Fin 64, f (Fin.castAdd 8 (Fin.natAdd 64 q)) :=
    Fin.sum_univ_add (fun q : Fin (64 + 64) => f (Fin.castAdd 8 q))
  rw [h2] at h1
  exact h1

end Cert.RealSum
-- ==== Proof.Words.lean ====
/-
  The values of the float words and the integer words that the two programs of this network carry: each
  32-bit pattern read as the extended real it denotes in the single-precision format, and each two's-complement
  integer word read as the real number it denotes.
-/
import Idealize.ShloMosaic.PureOps.Ideal
import Idealize.ShloMosaic.PureOps.Ideal.Laws

namespace Cert.Words

open Idealize.ShloMosaic

/-- Sign 0, exponent 127, fraction 0: the number one, 2^23 · 2^(127 - 127 - 23). -/
theorem ofBits_one : Ideal.ofBits .f32 0x3F800000#32 = 1 := by
  simp [Ideal.ofBits, Ideal.ieee]
  rw [← EReal.coe_mul]
  norm_num

/-- Sign 1, exponent all ones, fraction 0: minus infinity. -/
theorem ofBits_neg_inf : Ideal.ofBits .f32 0xFF800000#32 = ⊥ := by
  simp [Ideal.ofBits, Ideal.ieee]

/-- 127 = (2^23 + 0x7E0000) · 2^(133 - 127 - 23). -/
theorem ofBits_127 : Ideal.ofBits .f32 0x42FE0000#32 = ((127 : ℝ) : EReal) := by
  simp [Ideal.ofBits, Ideal.ieee]
  rw [← EReal.coe_mul]
  norm_num

/-- -128 = -(2^23) · 2^(134 - 127 - 23). -/
theorem ofBits_neg_128 : Ideal.ofBits .f32 0xC3000000#32 = ((-128 : ℝ) : EReal) := by
  simp [Ideal.ofBits, Ideal.ieee]
  rw [← EReal.coe_mul]
  norm_num

/-- 768 = (2^23 + 2^22) · 2^(136 - 127 - 23). -/
theorem ofBits_768 : Ideal.ofBits .f32 0x44400000#32 = ((768 : ℝ) : EReal) := by
  simp [Ideal.ofBits, Ideal.ieee]
  rw [← EReal.coe_mul]
  norm_num

/-- 2048 = 2^23 · 2^(138 - 127 - 23). -/
theorem ofBits_2048 : Ideal.ofBits .f32 0x45000000#32 = ((2048 : ℝ) : EReal) := by
  simp [Ideal.ofBits, Ideal.ieee]
  rw [← EReal.coe_mul]
  norm_num

/-- 3145728 = 4096 · 768 = (2^23 + 2^22) · 2^(148 - 127 - 23). -/
theorem ofBits_3145728 : Ideal.ofBits .f32 0x4A400000#32 = ((3145728 : ℝ) : EReal) := by
  simp [Ideal.ofBits, Ideal.ieee]
  rw [← EReal.coe_mul]
  norm_num

/-- 1572864 = 768 · 2048 = (2^23 + 2^22) · 2^(147 - 127 - 23). -/
theorem ofBits_1572864 : Ideal.ofBits .f32 0x49C00000#32 = ((1572864 : ℝ) : EReal) := by
  simp [Ideal.ofBits, Ideal.ieee]
  rw [← EReal.coe_mul]
  norm_num

/-- The word near 10^-6: sign 0, exponent 107, fraction 0x0637BD, the positive real
    (2^23 + 407485) · 2^(107 - 127 - 23) = 8796093 / 2^43. -/
theorem ofBits_eps_pos : ∃ r : ℝ, 0 < r ∧ Ideal.ofBits .f32 0x358637BD#32 = (r : EReal) := by
  refine ⟨(8796093 : ℝ) * ((2 : ℝ) ^ 43)⁻¹, by positivity, ?_⟩
  simp [Ideal.ofBits, Ideal.ieee]

/-- The word near 10^-5: sign 0, exponent 110, fraction 0x27C5AC, the positive real
    (2^23 + 2606508) · 2^(110 - 127 - 23) = 10995116 / 2^40. -/
theorem ofBits_floor_pos : ∃ r : ℝ, 0 < r ∧ Ideal.ofBits .f32 0x3727C5AC#32 = (r : EReal) := by
  refine ⟨(10995116 : ℝ) * ((2 : ℝ) ^ 40)⁻¹, by positivity, ?_⟩
  simp [Ideal.ofBits, Ideal.ieee]

/-- The word 2^32 - 128 read as a signed integer is -128. -/
theorem toInt_neg_128 : (((4294967168#32 : BitVec 32).toInt : ℝ) : EReal) = ((-128 : ℝ) : EReal) := by
  rw [show (4294967168#32 : BitVec 32).toInt = -128 by decide]
  norm_num

/-- The word 127 read as a signed integer is 127. -/
theorem toInt_127 : (((127#32 : BitVec 32).toInt : ℝ) : EReal) = ((127 : ℝ) : EReal) := by
  rw [show (127#32 : BitVec 32).toInt = 127 by decide]
  norm_num

/-- The word 2^32 - 1 read as a signed integer is -1. -/
theorem toInt_neg_one : (((4294967295#32 : BitVec 32).toInt : ℝ) : EReal) = ((-1 : ℝ) : EReal) := by
  rw [show (4294967295#32 : BitVec 32).toInt = -1 by decide]
  norm_num

/-- The word 1 read as a signed integer is 1. -/
theorem toInt_one : (((1#32 : BitVec 32).toInt : ℝ) : EReal) = ((1 : ℝ) : EReal) := by
  rw [show (1#32 : BitVec 32).toInt = 1 by decide]
  norm_num

end Cert.Words
-- ==== Proof.BitLinearLaw.lean ====
/-
  The two ways of writing one quantised layer agree on real inputs.

  A layer written through the straight-through estimator lets each quantised value q of an unquantised a enter
  as a + (q - a). For a real number a that is q, whatever q is (a real number, plus or minus infinity). It
  therefore suffices to know that every unquantised value is a real number: the entries of the normalised row and
  the weights. The normalised row of a real row under a real gain is real because the mean of the squares is a
  nonnegative real, so that after the positive offset is added the reciprocal root is taken of a positive real.
  For the second layer one needs more: its input row is the gated output of the first layer, and that is real
  because every quantised value of the first layer is real (a row's scale is a positive real, the tensor's
  scale a nonzero real, and rounding, clipping and dividing by a nonzero real keep real numbers real).
-/
import Idealize.ShloMosaic.PureOps.Ideal
import Idealize.ShloMosaic.PureOps.Ideal.Laws
import proofs.«116928_j46377056862386_1_alg».proof.Proof.BitLinear
import proofs.«116928_j46377056862386_1_alg».proof.Proof.LibRealSum
import proofs.«116928_j46377056862386_1_alg».proof.Proof.Words

noncomputable section

namespace Cert.BitLinear

open Idealize.ShloMosaic Cert.RealSum

/-! ## Positive and nonnegative real numbers inside the extended reals -/

/-- An extended real that is a positive real number. -/
def IsPos (x : EReal) : Prop := ∃ r : ℝ, 0 < r ∧ x = (r : EReal)

/-- An extended real that is a nonnegative real number. -/
def IsNonneg (x : EReal) : Prop := ∃ r : ℝ, 0 ≤ r ∧ x = (r : EReal)

theorem IsPos.isReal {x : EReal} (h : IsPos x) : IsReal x := by
  obtain ⟨r, _, e⟩ := h
  exact ⟨r, e⟩

theorem IsNonneg.isReal {x : EReal} (h : IsNonneg x) : IsReal x := by
  obtain ⟨r, _, e⟩ := h
  exact ⟨r, e⟩

/-- A positive real number is not zero. -/
theorem IsPos.ne_zero {x : EReal} (h : IsPos x) : x ≠ 0 := by
  obtain ⟨r, hr, rfl⟩ := h
  exact EReal.coe_ne_zero.mpr hr.ne'

/-- The image of the larger of two real numbers is the larger of their images. -/
theorem coe_max (p q : ℝ) : ((max p q : ℝ) : EReal) = max (p : EReal) (q : EReal) :=
  EReal.coe_strictMono.monotone.map_max

/-- The opposite of a real number is a real number. -/
theorem isReal_neg {x : EReal} (h : IsReal x) : IsReal (-x) := by
  obtain ⟨r, rfl⟩ := h
  exact ⟨-r, (EReal.coe_neg r).symm⟩

/-- The smaller of two real numbers is a real number, because it is one of the two. -/
theorem isReal_min {x y : EReal} (hx : IsReal x) (hy : IsReal y) : IsReal (min x y) := by
  rcases min_choice x y with h | h
  · rw [h]; exact hx
  · rw [h]; exact hy

/-- The magnitude of a real number r is the nonnegative real |r|. -/
theorem isNonneg_mag {x : EReal} (h : IsReal x) : IsNonneg (mag x) := by
  obtain ⟨r, rfl⟩ := h
  refine ⟨|r|, abs_nonneg r, ?_⟩
  rw [mag, abs_eq_max_neg, coe_max, EReal.coe_neg]

/-- The square of a real number is a nonnegative real. -/
theorem isNonneg_mul_self {x : EReal} (h : IsReal x) : IsNonneg (x * x) := by
  obtain ⟨r, rfl⟩ := h
  exact ⟨r * r, mul_self_nonneg r, (EReal.coe_mul r r).symm⟩

/-- A finite sum of nonnegative reals is a nonnegative real. -/
theorem isNonneg_sum {ι : Type} (s : Finset ι) (f : ι → EReal) (h : ∀ e ∈ s, IsNonneg (f e)) :
    IsNonneg (∑ e ∈ s, f e) := by
  refine Finset.sum_induction f IsNonneg ?_ ⟨0, le_rfl, EReal.coe_zero.symm⟩ h
  rintro _ _ ⟨p, hp, rfl⟩ ⟨q, hq, rfl⟩
  exact ⟨p + q, add_nonneg hp hq, (EReal.coe_add p q).symm⟩

/-- A nonnegative real plus a positive real is a positive real. -/
theorem isPos_add {x y : EReal} (hx : IsNonneg x) (hy : IsPos y) : IsPos (x + y) := by
  obtain ⟨p, hp, rfl⟩ := hx
  obtain ⟨q, hq, rfl⟩ := hy
  exact ⟨p + q, add_pos_of_nonneg_of_pos hp hq, (EReal.coe_add p q).symm⟩

/-- The larger of a real number and a positive real is a positive real. -/
theorem isPos_max {x y : EReal} (hx : IsReal x) (hy : IsPos y) : IsPos (max x y) := by
  obtain ⟨p, rfl⟩ := hx
  obtain ⟨q, hq, rfl⟩ := hy
  exact ⟨max p q, lt_max_of_lt_right hq, (coe_max p q).symm⟩

/-- A real number divided by a nonzero real number is a real number: the product with the reciprocal. -/
theorem isReal_div {x y : EReal} (hx : IsReal x) (hy : IsReal y) (h0 : y ≠ 0) : IsReal (Ideal.div x y) := by
  obtain ⟨p, rfl⟩ := hx
  obtain ⟨q, rfl⟩ := hy
  have hq : q ≠ 0 := fun h => h0 (by rw [h, EReal.coe_zero])
  rw [Ideal.div_coe hq]
  exact ⟨p * (1 / q), (EReal.coe_mul _ _).symm⟩

/-- A nonnegative real divided by a positive real is a nonnegative real. -/
theorem isNonneg_div {x y : EReal} (hx : IsNonneg x) (hy : IsPos y) : IsNonneg (Ideal.div x y) := by
  obtain ⟨p, hp, rfl⟩ := hx
  obtain ⟨q, hq, rfl⟩ := hy
  rw [Ideal.div_coe hq.ne']
  exact ⟨p * (1 / q), mul_nonneg hp (one_div_pos.mpr hq).le, (EReal.coe_mul _ _).symm⟩

/-- A positive real divided by a positive real is a positive real. -/
theorem isPos_div {x y : EReal} (hx : IsPos x) (hy : IsPos y) : IsPos (Ideal.div x y) := by
  obtain ⟨p, hp, rfl⟩ := hx
  obtain ⟨q, hq, rfl⟩ := hy
  rw [Ideal.div_coe hq.ne']
  exact ⟨p * (1 / q), mul_pos hp (one_div_pos.mpr hq), (EReal.coe_mul _ _).symm⟩

/-- The reciprocal root of a positive real r is the positive real 1 / √r. -/
theorem isPos_rsqrt {x : EReal} (hx : IsPos x) : IsPos (Ideal.rsqrt x) := by
  obtain ⟨r, hr, rfl⟩ := hx
  rw [Ideal.rsqrt_coe, if_neg (not_lt.mpr hr.le), if_neg hr.ne']
  exact ⟨(Real.sqrt r)⁻¹, inv_pos.mpr (Real.sqrt_pos.mpr hr), rfl⟩

/-- A real number rounded to the nearest integer is a real number. -/
theorem isReal_rne {x : EReal} (h : IsReal x) : IsReal (rne x) := by
  obtain ⟨r, rfl⟩ := h
  rw [rne, Ideal.liftRound_coe]
  exact ⟨_, rfl⟩

/-! ## The core identity -/

/-- Around a real number a the detour a + (q - a) ends at q, for every extended real q: for a real q this is
    the identity of the real numbers, and a real number plus (minus) infinity is plus (minus) infinity. -/
theorem add_sub_cancel_of_isReal {a : EReal} (ha : IsReal a) (q : EReal) : a + (q - a) = q := by
  obtain ⟨r, rfl⟩ := ha
  induction q using EReal.rec with
  | bot => rw [EReal.bot_sub, EReal.add_bot]
  | coe p => rw [← EReal.coe_sub, ← EReal.coe_add, add_sub_cancel]
  | top => rw [EReal.top_sub_coe, EReal.coe_add_top]

/-! ## The numbers of a layer -/

/-- The numbers of a layer are good when the row length, the two offsets and the numerator of the scale are
    positive reals and the four clipping bounds are real numbers. -/
structure Consts.Good (K : Consts) : Prop where
  n_pos : IsPos K.n
  ε_pos : IsPos K.ε
  t_pos : IsPos K.t
  c_pos : IsPos K.c
  lo_real : IsReal K.lo
  hi_real : IsReal K.hi
  lo'_real : IsReal K.lo'
  hi'_real : IsReal K.hi'

/-! ## Real numbers down one layer -/

section Row

variable {ι : Type} [Fintype ι]

/-- Under the root stands a positive real: the sum of the squares of a real row is a nonnegative real, it stays
    one when divided by the positive length, and the positive offset is added. -/
theorem isPos_radicand {n ε : EReal} (hn : IsPos n) (hε : IsPos ε) {v : ι → EReal} (hv : ∀ k, IsReal (v k)) :
    IsPos (Ideal.div (∑ k, v k * v k) n + ε) :=
  isPos_add (isNonneg_div (isNonneg_sum _ _ fun k _ => isNonneg_mul_self (hv k)) hn) hε

/-- Every entry of the normalised real row under a real gain is a real number. -/
theorem isReal_rms {n ε : EReal} (hn : IsPos n) (hε : IsPos ε) {v g : ι → EReal} (hv : ∀ k, IsReal (v k))
    (hg : ∀ k, IsReal (g k)) (d : ι) : IsReal (rms n ε v g d) := by
  unfold rms
  exact ((hv d).mul (isPos_rsqrt (isPos_radicand hn hε hv)).isReal).mul (hg d)

/-- The maximum, started from minus infinity, of real numbers over a nonempty finite set is a real number. -/
theorem isReal_fold_max (f : ι → EReal) (hf : ∀ k, IsReal (f k)) (s : Finset ι) (hs : s.Nonempty) :
    IsReal (s.fold max ⊥ f) := by
  classical
  induction s using Finset.induction_on with
  | empty => exact absurd hs Finset.not_nonempty_empty
  | insert a t ha ih =>
    rw [Finset.fold_insert ha]
    rcases t.eq_empty_or_nonempty with h | h
    · rw [h, Finset.fold_empty, max_bot_right]
      exact hf a
    · exact (hf a).max (ih h)

/-- The largest magnitude in a nonempty real row is a real number. -/
theorem isReal_rowMax [Nonempty ι] {u : ι → EReal} (hu : ∀ k, IsReal (u k)) : IsReal (rowMax u) :=
  isReal_fold_max (fun k => mag (u k)) (fun k => (isNonneg_mag (hu k)).isReal) Finset.univ Finset.univ_nonempty

/-- The scale of a nonempty real row is a positive real: a positive real over the larger of a real number and a
    positive real. -/
theorem isPos_rowScale [Nonempty ι] {c t : EReal} (hc : IsPos c) (ht : IsPos t) {u : ι → EReal}
    (hu : ∀ k, IsReal (u k)) : IsPos (rowScale c t u) := by
  unfold rowScale
  exact isPos_div hc (isPos_max (isReal_rowMax hu) ht)

/-- Every quantised entry of a real row is a real number. -/
theorem isReal_rowQuant {lo hi c t : EReal} (hlo : IsReal lo) (hhi : IsReal hi) (hc : IsPos c) (ht : IsPos t)
    {u : ι → EReal} (hu : ∀ k, IsReal (u k)) (d : ι) : IsReal (rowQuant lo hi c t u d) := by
  haveI : Nonempty ι := ⟨d⟩
  have hσ : IsPos (rowScale c t u) := isPos_rowScale hc ht hu
  unfold rowQuant
  exact isReal_div (isReal_min hhi (hlo.max (isReal_rne ((hu d).mul hσ.isReal)))) hσ.isReal hσ.ne_zero

end Row

/-- A real weight quantised with a nonzero real scale is a real number. -/
theorem isReal_weightQuant {lo' hi' s w : EReal} (hlo : IsReal lo') (hhi : IsReal hi') (hs : IsReal s)
    (hs0 : s ≠ 0) (hw : IsReal w) : IsReal (weightQuant lo' hi' s w) := by
  unfold weightQuant
  exact isReal_div (isReal_min hhi (hlo.max (isReal_rne (hw.mul hs)))) hs hs0

section Layer

variable {ι ο : Type} [Fintype ι]

/-- Every entry of a layer's normalised row is a real number, for a real row and a real gain. -/
theorem isReal_normed {K : Consts} (hK : K.Good) {x g : ι → EReal} (hx : ∀ k, IsReal (x k))
    (hg : ∀ k, IsReal (g k)) (d : ι) : IsReal (normed K x g d) :=
  isReal_rms hK.n_pos hK.ε_pos hx hg d

/-- Every output of a layer, products taken directly, is a real number: a finite sum of products of reals. -/
theorem isReal_layerDirect {K : Consts} (hK : K.Good) {s : EReal} (hs : IsReal s) (hs0 : s ≠ 0)
    {x g : ι → EReal} {w : ο → ι → EReal} (hx : ∀ k, IsReal (x k)) (hg : ∀ k, IsReal (g k))
    (hw : ∀ o d, IsReal (w o d)) (o : ο) : IsReal (layerDirect K s x g w o) := by
  unfold layerDirect
  refine isReal_sum _ _ fun d _ => ?_
  exact (isReal_rowQuant hK.lo_real hK.hi_real hK.c_pos hK.t_pos (isReal_normed hK hx hg) d).mul
    (isReal_weightQuant hK.lo'_real hK.hi'_real hs hs0 (hw o d))

/-- ONE LAYER: written through the estimator or directly, a layer has the same outputs when its row, its gain
    and its weights are real. Term by term both detours are around real numbers: an entry of the normalised row
    and a weight. The scale of the weights plays no part. -/
theorem layerSte_eq_layerDirect {K : Consts} (hK : K.Good) (s : EReal) {x g : ι → EReal} {w : ο → ι → EReal}
    (hx : ∀ k, IsReal (x k)) (hg : ∀ k, IsReal (g k)) (hw : ∀ o d, IsReal (w o d)) (o : ο) :
    layerSte K s x g w o = layerDirect K s x g w o := by
  unfold layerSte layerDirect
  refine Finset.sum_congr rfl fun d _ => ?_
  rw [add_sub_cancel_of_isReal (isReal_normed hK hx hg d), add_sub_cancel_of_isReal (hw o d)]

end Layer

/-- The gate of two real numbers is a real number: the logistic function of a real number is real. -/
theorem isReal_swiglu {up gate : EReal} (hu : IsReal up) (hg : IsReal gate) : IsReal (swiglu up gate) := by
  obtain ⟨p, rfl⟩ := hg
  unfold swiglu
  rw [Ideal.logistic_coe]
  exact ((isReal_coe p).mul (isReal_coe _)).mul hu

/-! ## The two layers -/

section Net

variable {ι κ ο ο₁ : Type} [Fintype ι] [Fintype κ]

/-- THE NETWORK: through the estimator in both layers or directly in both, the result is the same when every
    input is real, both layers' numbers are good and the first layer's weight scale is a nonzero real. The first
    layers agree output by output; the second layer's row, the gated outputs of the first, is then real, and the
    second layers agree on it. -/
theorem netSte_eq_netDirect {K₁ K₂ : Consts} (h₁ : K₁.Good) (h₂ : K₂.Good) {s₁ : EReal} (hs₁ : IsReal s₁)
    (hs₁0 : s₁ ≠ 0) (s₂ : EReal) (upIx gateIx : κ → ο₁) {x g₁ : ι → EReal} {w₁ : ο₁ → ι → EReal}
    {g₂ : κ → EReal} {w₂ : ο → κ → EReal} (hx : ∀ k, IsReal (x k)) (hg₁ : ∀ k, IsReal (g₁ k))
    (hw₁ : ∀ o d, IsReal (w₁ o d)) (hg₂ : ∀ k, IsReal (g₂ k)) (hw₂ : ∀ o d, IsReal (w₂ o d)) (c : ο) :
    netSte K₁ K₂ s₁ s₂ upIx gateIx x g₁ w₁ g₂ w₂ c = netDirect K₁ K₂ s₁ s₂ upIx gateIx x g₁ w₁ g₂ w₂ c := by
  have h1 : layerSte K₁ s₁ x g₁ w₁ = layerDirect K₁ s₁ x g₁ w₁ :=
    funext fun o => layerSte_eq_layerDirect h₁ s₁ hx hg₁ hw₁ o
  unfold netSte netDirect
  rw [h1]
  exact layerSte_eq_layerDirect h₂ s₂
    (fun j => isReal_swiglu (isReal_layerDirect h₁ hs₁ hs₁0 hx hg₁ hw₁ (upIx j))
      (isReal_layerDirect h₁ hs₁ hs₁0 hx hg₁ hw₁ (gateIx j))) hg₂ hw₂ c

end Net

/-! ## This kernel's network -/

section Instance

/-- The first layer's numbers are good: 768, the two small positive words, 127, and four real bounds. -/
theorem K768_good : K768.Good where
  n_pos := ⟨768, by norm_num, Cert.Words.ofBits_768⟩
  ε_pos := Cert.Words.ofBits_eps_pos
  t_pos := Cert.Words.ofBits_floor_pos
  c_pos := ⟨127, by norm_num, Cert.Words.ofBits_127⟩
  lo_real := ⟨_, rfl⟩
  hi_real := ⟨_, rfl⟩
  lo'_real := ⟨_, rfl⟩
  hi'_real := ⟨_, rfl⟩

/-- The second layer's numbers are good: the same with the length 2048. -/
theorem K2048_good : K2048.Good where
  n_pos := ⟨2048, by norm_num, Cert.Words.ofBits_2048⟩
  ε_pos := Cert.Words.ofBits_eps_pos
  t_pos := Cert.Words.ofBits_floor_pos
  c_pos := ⟨127, by norm_num, Cert.Words.ofBits_127⟩
  lo_real := ⟨_, rfl⟩
  hi_real := ⟨_, rfl⟩
  lo'_real := ⟨_, rfl⟩
  hi'_real := ⟨_, rfl⟩

/-- The scale of a real weight tensor is a positive real when the count of its entries is: the sum of the
    magnitudes is a nonnegative real, so is the mean, the larger of the mean and the positive floor is a positive
    real, and one over it is a positive real. -/
theorem isPos_tensorScale {σ : Type} [Fintype σ] (nw : BitVec (FTy.f32).bits) {w : σ → EReal}
    (hw : ∀ j, IsReal (w j)) (hn : IsPos (Ideal.ofBits .f32 nw)) : IsPos (tensorScale nw w) := by
  unfold tensorScale
  rw [Cert.Words.ofBits_one, Ideal.ofBits_zero_f32, zero_add]
  exact isPos_div ⟨1, one_pos, EReal.coe_one.symm⟩
    (isPos_max (isNonneg_div (isNonneg_sum _ _ fun j _ => isNonneg_mag (hw j)) hn).isReal
      Cert.Words.ofBits_floor_pos)

open Idealize.ShloMosaic.ValueIdx

variable (X : (⟨3, ![8, 4096, 768]⟩ : Shape).Idx → EReal) (Win : (⟨2, ![4096, 768]⟩ : Shape).Idx → EReal)
  (Gin : (⟨1, ![768]⟩ : Shape).Idx → EReal) (Wout : (⟨2, ![768, 2048]⟩ : Shape).Idx → EReal)
  (Gout : (⟨1, ![2048]⟩ : Shape).Idx → EReal)

/-- THE LAW OF THIS KERNEL: on real inputs the result through the estimator is the result taken directly, entry
    by entry. -/
theorem steAt_eq_directAt (hX : ∀ i, IsReal (X i)) (hWin : ∀ i, IsReal (Win i)) (hGin : ∀ i, IsReal (Gin i))
    (hWout : ∀ i, IsReal (Wout i)) (hGout : ∀ i, IsReal (Gout i)) (b : Fin 8) (s : Fin 4096) (c : Fin 768) :
    steAt X Win Gin Wout Gout b s c = directAt X Win Gin Wout Gout b s c := by
  have hs₁ : IsPos (tensorScale 0x4A400000#32 Win) :=
    isPos_tensorScale 0x4A400000#32 hWin ⟨3145728, by norm_num, Cert.Words.ofBits_3145728⟩
  unfold steAt directAt
  exact netSte_eq_netDirect K768_good K2048_good hs₁.isReal hs₁.ne_zero _ upIx gateIx
    (fun d => hX _) (fun d => hGin _) (fun o d => hWin _) (fun k => hGout _) (fun c' k => hWout _) c

end Instance

end Cert.BitLinear

end
-- ==== Proof.LibHostWalk.lean ====
/-
  Reading a buffer through a straight line of host operations: each operation's result at its own result buffer is
  its function of its operands' contents, and any other buffer keeps what it held. One pass rewrites a read at the end
  of the line into the composed term of the contents the line started from. A two-piece concatenation is restated
  with its two pieces as plain arguments, so that the pass also rewrites the reads inside the pieces.
-/
import Idealize.ShloMosaic.Lib.StableHlo.Run

set_option maxRecDepth 16384

noncomputable section

namespace Cert.HostWalk

open Idealize.ShloMosaic Idealize.ShloMosaic.StableHlo

/-- The concatenation of two pieces along an axis, the pieces as arguments. -/
def cat2 {α : Type} (t : Shape) (a : Fin t.rank) (s₁ s₂ : Shape) (x₁ : s₁.Idx → α) (x₂ : s₂.Idx → α)
    (h : Shape.Concatenates [s₁, s₂] t a) : t.Idx → α :=
  concatenate t a [⟨s₁, x₁⟩, ⟨s₂, x₂⟩] h

theorem concatenate_pair {α : Type} (t : Shape) (a : Fin t.rank) (s₁ s₂ : Shape) (x₁ : s₁.Idx → α) (x₂ : s₂.Idx → α)
    (h : Shape.Concatenates [s₁, s₂] t a) :
    concatenate t a [⟨s₁, x₁⟩, ⟨s₂, x₂⟩] h = cat2 t a s₁ s₂ x₁ x₂ h := rfl

/-- Reads a buffer through the fold of a line of host operations (and through whatever further rewriting rules are
    given for the boundaries between lines). -/
macro "walk_back" "[" ls:Lean.Parser.Tactic.simpLemma,* "]" : tactic =>
  `(tactic| (simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne',
      TRef.nullary, TRef.unary, TRef.binary, TRef.ternary, TRef.quaternary, TRef.reshape, TRef.toBuf, TRef.ofBuf, TRef.of, cast_eq,
      concatenate_pair, $ls,*]))

end Cert.HostWalk

end
-- ==== Proof.KerHost.lean ====
/-
  What the kernel's five input arrays hold when the region is entered.

  Before the call the host reshapes the tokens [8, 4096, 768] to [32768, 768] (row-major: token (b, s) is row
  b · 4096 + s); quantises each weight tensor to three levels with one scale for the whole tensor — one over the
  larger of the mean magnitude and a floor —, transposes it and narrows it to sixteen bits, which over the extended
  reals changes nothing; and lays each gain vector out as a row. Each array is read here at one index, in the
  specification's terms.
-/
import proofs.«116928_j46377056862386_1_alg».proof.Proof.Gen.KernelIdeal.Frame
import proofs.«116928_j46377056862386_1_alg».proof.Proof.LibHostWalk
import proofs.«116928_j46377056862386_1_alg».proof.Proof.BitLinear
import proofs.«116928_j46377056862386_1_alg».proof.Proof.Words
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws

set_option maxRecDepth 65536

noncomputable section

namespace Cert.KernelIdeal.HostSide

open Cert.KernelIdeal Cert.KernelIdeal.Gen Idealize.ShloMosaic Idealize.ShloMosaic.TcCoe Idealize.SL.Sem
open Idealize.ShloMosaic.StableHlo Idealize.ShloMosaic.ValueIdx Cert.BitLinear

/-! ## One tensor's scale and its quantised entries, for any shape -/

/-- The host's scale of a whole tensor — one over the larger of (sum of magnitudes over the count) and the floor,
    a rank-0 array — is the specification's `tensorScale`: the host's sum into a rank-0 result is the starting
    value plus the sum over every index. -/
theorem scale_apply {s : Shape} (axes : List (Fin s.rank)) (h : s.ReducesTo axes S_) (hS : 0 < S_.numel)
    (w : FVec Ideal s .f32) (nw : BitVec (FTy.f32).bits) (i : S_.Idx) :
    Host.divf (constant S_ .f32 0x3F800000#32)
        (maximumf (Host.divf (Host.reduceAdd (Host.absf w) (constant S_ .f32 0x00000000#32) h hS) (constant S_ .f32 nw))
          (constant S_ .f32 0x3727C5AC#32)) i
      = tensorScale nw w := by
  have hsum : Host.reduceAdd (Host.absf w) (constant (F := Ideal) S_ .f32 0x00000000#32) h hS i
      = Ideal.ofBits .f32 0x00000000#32 + ∑ j : s.Idx, mag (w j) := by
    generalize hy : Host.absf w = y0
    have hy' : ∀ j, y0 j = mag (w j) := fun j => by rw [← hy]; rfl
    simp only [Host.reduceAdd, Ideal.hostReduceAdd_def]
    refine (Ideal.hostReduceAdd_total h (fun b => b.elim0) y0 _ i).trans ?_
    exact congrArg (fun z => Ideal.ofBits .f32 0x00000000#32 + z) (Finset.sum_congr rfl fun j _ => hy' j)
  unfold tensorScale
  exact congrArg (fun z => Ideal.div (Ideal.ofBits .f32 0x3F800000#32)
    (max (Ideal.div z (Ideal.ofBits .f32 nw)) (Ideal.ofBits .f32 0x3727C5AC#32))) hsum

/-- An entry of a tensor quantised to three levels by the host: the scale `σ` is a rank-0 array spread over the
    tensor, the bounds -1 and 1 are integers converted. -/
theorem quant_apply {t : Shape} (hb : S_.BroadcastsInDim t (![] : Fin 0 → Fin t.rank)) (w : FVec Ideal t .f32)
    (σ : FVec Ideal S_ .f32) (i : t.Idx) :
    Host.divf (F := Ideal)
        (minimumf (broadcastInDim (s := S_) t ![] hb (sitofp (F := Ideal) .f32 (constantI S_ 32 1#32)))
          (maximumf (broadcastInDim (s := S_) t ![] hb (sitofp (F := Ideal) .f32 (constantI S_ 32 4294967295#32)))
            (Host.roundeven (mulf w (broadcastInDim (s := S_) t ![] hb σ)))))
        (broadcastInDim (s := S_) t ![] hb σ) i
      = weightQuant K768.lo' K768.hi' (σ ix0) (w i) := by
  have hσ : broadcastInDim (s := S_) t ![] hb σ i = σ ix0 := broadcastInDim_apply _ hb σ i ix0 (fun a => a.elim0)
  have hhi : broadcastInDim (s := S_) t ![] hb (sitofp (F := Ideal) .f32 (constantI S_ 32 1#32)) i = K768.hi' :=
    (broadcastInDim_apply _ hb _ i ix0 (fun a => a.elim0)).trans Cert.Words.toInt_one
  have hlo : broadcastInDim (s := S_) t ![] hb (sitofp (F := Ideal) .f32 (constantI S_ 32 4294967295#32)) i = K768.lo' :=
    (broadcastInDim_apply _ hb _ i ix0 (fun a => a.elim0)).trans Cert.Words.toInt_neg_one
  unfold weightQuant rne
  show Ideal.div (min (broadcastInDim (s := S_) t ![] hb _ i) (max (broadcastInDim (s := S_) t ![] hb _ i)
      (Ideal.liftRound Ideal.roundHalfEven (w i * broadcastInDim (s := S_) t ![] hb σ i)))) (broadcastInDim (s := S_) t ![] hb σ i) = _
  rw [hσ, hhi, hlo]

variable (m : (ℓ : Loc nD τ sig) → Buf (Elt Ideal) ℓ)

/-! ## The five arrays -/

/-- The tokens, reshaped: row b · 4096 + s of the [32768, 768] array is token (b, s). -/
theorem tokens (c : Dev nD) (b : Fin 8) (s : Fin 4096) (d : Fin 768) :
    (V m c main_v0 : S32768x768.Idx → EReal) (ix2 (⟨b.val * 4096 + s.val, by omega⟩ : Fin 32768) d)
      = (m ((c : Thread nD τ).loc main_arg0) : S8x4096x768.Idx → EReal) (ix3 b s d) := by
  have e : (V m c main_v0 : S32768x768.Idx → EReal)
      = shapeCast S32768x768 (m ((c : Thread nD τ).loc main_arg0) : S8x4096x768.Idx → EReal) shapeCasts_S8x4096x768_S32768x768 := by
    dsimp only [V, V0]
    simp only [hostOps0, hostOps0_1, hostOps0_2, hostOps0_3, hostOps0_4, hostOps0_5, hostOps0_6, hostOps0_7, hostOps0_8,
      List.flatten_cons, List.flatten_nil, List.append_nil, List.cons_append, List.nil_append]
    walk_back []
    rfl
  rw [e]
  refine shapeCast_apply _ _ _ _ ?_
  rw [Shape.rowMajor_val_two]
  show ((⟨3, ![8, 4096, 768]⟩ : Shape).rowMajor (ix3 b s d)).val = _
  rw [Shape.rowMajor_val_three]
  rfl

/-- The first weights: quantised with the tensor's scale, transposed to [768, 4096]. -/
theorem weights₁ (c : Dev nD) (d : Fin 768) (o : Fin 4096) :
    (V m c main_v24 : S768x4096.Idx → EReal) (ix2 d o)
      = weightQuant K768.lo' K768.hi'
          (tensorScale 0x4A400000#32 (m ((c : Thread nD τ).loc main_arg1) : S4096x768.Idx → EReal))
          ((m ((c : Thread nD τ).loc main_arg1) : S4096x768.Idx → EReal) (ix2 o d)) := by
  have e : (V m c main_v24 : S768x4096.Idx → EReal)
      = (truncf (F := Ideal) .bf16 (transpose S768x4096 [1, 0]
          (Host.divf (F := Ideal)
            (minimumf (broadcastInDim S4096x768 ![] bcast_S_S4096x768 (sitofp (F := Ideal) .f32 (constantI S_ 32 1#32)))
              (maximumf (broadcastInDim S4096x768 ![] bcast_S_S4096x768 (sitofp (F := Ideal) .f32 (constantI S_ 32 4294967295#32)))
                (Host.roundeven (mulf (m ((c : Thread nD τ).loc main_arg1) : S4096x768.Idx → EReal)
                  (broadcastInDim S4096x768 ![] bcast_S_S4096x768
                    (Host.divf (F := Ideal) (constant S_ .f32 0x3F800000#32)
                      (maximumf (Host.divf (Host.reduceAdd (Host.absf (m ((c : Thread nD τ).loc main_arg1) : S4096x768.Idx → EReal))
                          (constant S_ .f32 0x00000000#32) reducesTo_S4096x768_S_d0_1 h_S_) (constant S_ .f32 0x4A400000#32))
                        (constant S_ .f32 0x3727C5AC#32))))))))
            (broadcastInDim S4096x768 ![] bcast_S_S4096x768
              (Host.divf (F := Ideal) (constant S_ .f32 0x3F800000#32)
                (maximumf (Host.divf (Host.reduceAdd (Host.absf (m ((c : Thread nD τ).loc main_arg1) : S4096x768.Idx → EReal))
                    (constant S_ .f32 0x00000000#32) reducesTo_S4096x768_S_d0_1 h_S_) (constant S_ .f32 0x4A400000#32))
                  (constant S_ .f32 0x3727C5AC#32)))))
          transposes_S4096x768_S768x4096_1_0) bitsLt_bf16_f32 : FVec Ideal S768x4096 .bf16) := by
    dsimp only [V, V0]
    simp only [hostOps0, hostOps0_1, hostOps0_2, hostOps0_3, hostOps0_4, hostOps0_5, hostOps0_6, hostOps0_7, hostOps0_8,
      List.flatten_cons, List.flatten_nil, List.append_nil, List.cons_append, List.nil_append]
    walk_back []
  rw [e, truncf_apply, transpose_ix2_apply, quant_apply, scale_apply]

/-- The first gain, as a row. -/
theorem gain₁ (c : Dev nD) (d : Fin 768) :
    (V m c main_v27 : S1x768.Idx → EReal) (ix2 (0 : Fin 1) d)
      = (m ((c : Thread nD τ).loc main_arg2) : S768.Idx → EReal) (ix1 d) := by
  have e : (V m c main_v27 : S1x768.Idx → EReal)
      = shapeCast S1x768 (m ((c : Thread nD τ).loc main_arg2) : S768.Idx → EReal) shapeCasts_S768_S1x768 := by
    dsimp only [V, V0]
    simp only [hostOps0, hostOps0_1, hostOps0_2, hostOps0_3, hostOps0_4, hostOps0_5, hostOps0_6, hostOps0_7, hostOps0_8,
      List.flatten_cons, List.flatten_nil, List.append_nil, List.cons_append, List.nil_append]
    walk_back []
    rfl
  rw [e, shapeCast_a_1a_apply]

/-- The second weights: quantised with the tensor's scale, transposed to [2048, 768]. -/
theorem weights₂ (c : Dev nD) (k : Fin 2048) (c' : Fin 768) :
    (V m c main_v26 : S2048x768.Idx → EReal) (ix2 k c')
      = weightQuant K2048.lo' K2048.hi'
          (tensorScale 0x49C00000#32 (m ((c : Thread nD τ).loc main_arg3) : S768x2048.Idx → EReal))
          ((m ((c : Thread nD τ).loc main_arg3) : S768x2048.Idx → EReal) (ix2 c' k)) := by
  have e : (V m c main_v26 : S2048x768.Idx → EReal)
      = (truncf (F := Ideal) .bf16 (transpose S2048x768 [1, 0]
          (Host.divf (F := Ideal)
            (minimumf (broadcastInDim S768x2048 ![] bcast_S_S768x2048 (sitofp (F := Ideal) .f32 (constantI S_ 32 1#32)))
              (maximumf (broadcastInDim S768x2048 ![] bcast_S_S768x2048 (sitofp (F := Ideal) .f32 (constantI S_ 32 4294967295#32)))
                (Host.roundeven (mulf (m ((c : Thread nD τ).loc main_arg3) : S768x2048.Idx → EReal)
                  (broadcastInDim S768x2048 ![] bcast_S_S768x2048
                    (Host.divf (F := Ideal) (constant S_ .f32 0x3F800000#32)
                      (maximumf (Host.divf (Host.reduceAdd (Host.absf (m ((c : Thread nD τ).loc main_arg3) : S768x2048.Idx → EReal))
                          (constant S_ .f32 0x00000000#32) reducesTo_S768x2048_S_d0_1 h_S_) (constant S_ .f32 0x49C00000#32))
                        (constant S_ .f32 0x3727C5AC#32))))))))
            (broadcastInDim S768x2048 ![] bcast_S_S768x2048
              (Host.divf (F := Ideal) (constant S_ .f32 0x3F800000#32)
                (maximumf (Host.divf (Host.reduceAdd (Host.absf (m ((c : Thread nD τ).loc main_arg3) : S768x2048.Idx → EReal))
                    (constant S_ .f32 0x00000000#32) reducesTo_S768x2048_S_d0_1 h_S_) (constant S_ .f32 0x49C00000#32))
                  (constant S_ .f32 0x3727C5AC#32)))))
          transposes_S768x2048_S2048x768_1_0) bitsLt_bf16_f32 : FVec Ideal S2048x768 .bf16) := by
    dsimp only [V, V0]
    simp only [hostOps0, hostOps0_1, hostOps0_2, hostOps0_3, hostOps0_4, hostOps0_5, hostOps0_6, hostOps0_7, hostOps0_8,
      List.flatten_cons, List.flatten_nil, List.append_nil, List.cons_append, List.nil_append]
    walk_back []
  rw [e, truncf_apply, transpose_ix2_apply, quant_apply, scale_apply]
  rfl

/-- The second gain, as a row. -/
theorem gain₂ (c : Dev nD) (k : Fin 2048) :
    (V m c main_v28 : S1x2048.Idx → EReal) (ix2 (0 : Fin 1) k)
      = (m ((c : Thread nD τ).loc main_arg4) : S2048.Idx → EReal) (ix1 k) := by
  have e : (V m c main_v28 : S1x2048.Idx → EReal)
      = shapeCast S1x2048 (m ((c : Thread nD τ).loc main_arg4) : S2048.Idx → EReal) shapeCasts_S2048_S1x2048 := by
    dsimp only [V, V0]
    simp only [hostOps0, hostOps0_1, hostOps0_2, hostOps0_3, hostOps0_4, hostOps0_5, hostOps0_6, hostOps0_7, hostOps0_8,
      List.flatten_cons, List.flatten_nil, List.append_nil, List.cons_append, List.nil_append]
    walk_back []
    rfl
  rw [e, shapeCast_a_1a_apply]

end Cert.KernelIdeal.HostSide

end
-- ==== Proof.LibAxisFold.lean ====
/-
  The maximum down a column, the maximum along a row and the sum along a row of a matrix, each read at one
  index.

  An [a, b] array of extended reals reduced by `max` along axis 0 (down its rows), from the value a starting
  word denotes, holds at column l the fold of `max` from that value over the entries (k, l), k < a; reduced
  along axis 1 it holds at row p the fold over the entries (p, k), k < b; and reduced by addition along axis 1
  from a zero starting value it holds at row p the finite sum of the entries (p, k). (The sum down a column is
  the companion file's.) Stated with the operation's own proof arguments as variables, so that a printed
  reduction meets each lemma in term mode whatever proofs it carries. Depends on no program.
-/
import Idealize.ShloMosaic.Lib.ValueIdx
import Idealize.ShloMosaic.PureOps.Ideal.Laws

noncomputable section

namespace Cert.AxisFold

open Idealize.ShloMosaic Idealize.ShloMosaic.ValueIdx

/-- The maximum of column `l` of an [a, b] array over its `a` rows, folded from the value of the word `acc`. -/
theorem column_max {a b : ℕ} (v : FVec Ideal ⟨2, ![a, b]⟩ .f32) (acc : BitVec (FTy.f32).bits)
    (h : (⟨2, ![a, b]⟩ : Shape).Reduces [0] ⟨1, ![b]⟩)
    (hφ : FKind.Formats .f32) (hacc : acc = FKind.maximumf.neutral .f32 hφ) (l : Fin b) :
    multiReduction .maximumf [0] ⟨1, ![b]⟩ v acc h hφ hacc (ix1 l)
      = (Finset.univ : Finset (Fin a)).fold max (Ideal.ofBits .f32 acc) fun k => v (ix2 k l) :=
  (Ideal.multiReduction_maximumf_single v acc h hφ hacc (ix1 l)).trans
    (congrArg (fun f => Finset.fold max (Ideal.ofBits .f32 acc) f (Finset.univ : Finset (Fin a)))
      (funext fun k => congrArg v (funext fun c => Fin.ext (by
        match c with
        | ⟨0, _⟩ => rfl
        | ⟨1, _⟩ => rfl))))

/-- The maximum of row `p` of an [a, b] array over its `b` columns, folded from the value of the word `acc`. -/
theorem row_max {a b : ℕ} (v : FVec Ideal ⟨2, ![a, b]⟩ .f32) (acc : BitVec (FTy.f32).bits)
    (h : (⟨2, ![a, b]⟩ : Shape).Reduces [1] ⟨1, ![a]⟩)
    (hφ : FKind.Formats .f32) (hacc : acc = FKind.maximumf.neutral .f32 hφ) (p : Fin a) :
    multiReduction .maximumf [1] ⟨1, ![a]⟩ v acc h hφ hacc (ix1 p)
      = (Finset.univ : Finset (Fin b)).fold max (Ideal.ofBits .f32 acc) fun k => v (ix2 p k) :=
  (Ideal.multiReduction_maximumf_single v acc h hφ hacc (ix1 p)).trans
    (congrArg (fun f => Finset.fold max (Ideal.ofBits .f32 acc) f (Finset.univ : Finset (Fin b)))
      (funext fun k => congrArg v (funext fun c => Fin.ext (by
        match c with
        | ⟨0, _⟩ => rfl
        | ⟨1, _⟩ => rfl))))

/-- The sum of row `p` of an [a, b] array over its `b` columns, from a zero initial value. -/
theorem row_sum {a b : ℕ} (v : FVec Ideal ⟨2, ![a, b]⟩ .f32) (h : (⟨2, ![a, b]⟩ : Shape).Reduces [1] ⟨1, ![a]⟩)
    (hφ : FKind.Formats .f32) (hacc : (0x00000000#32 : BitVec (FTy.f32).bits) = FKind.add.neutral .f32 hφ) (p : Fin a) :
    multiReduction .add [1] ⟨1, ![a]⟩ v 0x00000000#32 h hφ hacc (ix1 p) = ∑ k : Fin b, v (ix2 p k) :=
  (Ideal.multiReduction_add_single v 0x00000000#32 h hφ hacc (ix1 p)).trans
    (Finset.sum_congr rfl fun k _ => congrArg v (funext fun c => Fin.ext (by
      match c with
      | ⟨0, _⟩ => rfl
      | ⟨1, _⟩ => rfl)))

end Cert.AxisFold

end
-- ==== Proof.LibColumn.lean ====
/-
  A vector as a column. A length-`a` vector reshaped to `[a, 1]` reads, at `(i, 0)`, the vector at `i`; and an
  `[a, 1]` column broadcast across `b` columns reads, at `(p, c)`, the column at `(p, 0)`. (The companions for
  a row `[1, a]` are the library's.)
-/
import Idealize.ShloMosaic.Lib.ValueLayout
import Idealize.ShloMosaic.Lib.Pipeline.Value

noncomputable section

namespace Cert.Column

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Column

end
-- ==== Proof.QuantRows.lean ====
/-
  The vector unit's chain that normalises and fake-quantises the rows of a matrix, read at one entry.

  From an [R, C] matrix `y`, the length-R vector `ss` of its rows' sums of squares and a gain row `g` of shape [1, C],
  the chain forms, row by row, `u = y · (ss / n + ε)^(-1/2) · g`; the row's scale `σ = c / max(max_k |u k|, t)`, the
  maximum folded from the word `0xFF800000`; and `clip(round(u · σ), lo, hi) / σ`, finally narrowed to sixteen
  bits, which over the extended reals changes nothing. Every number is a float word. At entry (p, d) the result is
  the specification's `rowQuant` of row p's `u`, once that starting word is known to denote `-∞`.
-/
import Idealize.ShloMosaic.Lib.ValueIdx
import Idealize.ShloMosaic.Lib.ValueLayout
import Idealize.ShloMosaic.Lib.Pipeline.Value
import Idealize.ShloMosaic.PureOps.Ideal.Laws
import proofs.«116928_j46377056862386_1_alg».proof.Proof.BitLinear
import proofs.«116928_j46377056862386_1_alg».proof.Proof.LibAxisFold
import proofs.«116928_j46377056862386_1_alg».proof.Proof.LibColumn

noncomputable section

namespace Cert.QuantRows

open Idealize.ShloMosaic Idealize.ShloMosaic.ValueIdx Cert.BitLinear

variable {R C : ℕ}

/-- The rows normalised and scaled by the gain: `y · (ss / n + ε)^(-1/2) · g`, the column of roots spread
    across the C lanes and the gain row spread down the R rows. -/
def normRows (y : FVec Ideal ⟨2, ![R, C]⟩ .f32) (ss : FVec Ideal ⟨1, ![R]⟩ .f32) (g : Vec Ideal ⟨2, ![1, C]⟩ .f32)
    (wn wε : BitVec (FTy.f32).bits)
    (hcol : (⟨1, ![R]⟩ : Shape).ShapeCasts ⟨2, ![R, 1]⟩) (hacross : (⟨2, ![R, 1]⟩ : Shape).Broadcasts ⟨2, ![R, C]⟩)
    (hself : (⟨2, ![1, C]⟩ : Shape).ShapeCasts ⟨2, ![1, C]⟩) (hdown : (⟨2, ![1, C]⟩ : Shape).Broadcasts ⟨2, ![R, C]⟩) :
    FVec Ideal ⟨2, ![R, C]⟩ .f32 :=
  mulf
    (mulf y (broadcastTo ⟨2, ![R, C]⟩
      (rsqrt (addf (divf (shapeCast ⟨2, ![R, 1]⟩ ss hcol) (broadcast ⟨2, ![R, 1]⟩ (Scalar.ofBits .f32 wn)))
        (broadcast ⟨2, ![R, 1]⟩ (Scalar.ofBits .f32 wε)))) hacross))
    (broadcastTo ⟨2, ![R, C]⟩ (shapeCast ⟨2, ![1, C]⟩ g hself) hdown)

/-- Row p of the normalised rows, as a function of the lane. -/
def normRow (y : FVec Ideal ⟨2, ![R, C]⟩ .f32) (ss : FVec Ideal ⟨1, ![R]⟩ .f32) (g : Vec Ideal ⟨2, ![1, C]⟩ .f32)
    (wn wε : BitVec (FTy.f32).bits) (p : Fin R) (d : Fin C) : EReal :=
  y (ix2 p d) * Ideal.rsqrt (Ideal.div (ss (ix1 p)) (Ideal.ofBits .f32 wn) + Ideal.ofBits .f32 wε) * g (ix2 (0 : Fin 1) d)

theorem normRows_apply (y : FVec Ideal ⟨2, ![R, C]⟩ .f32) (ss : FVec Ideal ⟨1, ![R]⟩ .f32) (g : Vec Ideal ⟨2, ![1, C]⟩ .f32)
    (wn wε : BitVec (FTy.f32).bits) (hcol hacross hself hdown) (p : Fin R) (d : Fin C) :
    normRows y ss g wn wε hcol hacross hself hdown (ix2 p d) = normRow y ss g wn wε p d := by
  unfold normRows normRow
  show y (ix2 p d) * broadcastTo ⟨2, ![R, C]⟩ _ hacross (ix2 p d) * broadcastTo ⟨2, ![R, C]⟩ _ hdown (ix2 p d) = _
  rw [Cert.Column.broadcastTo_a1_ab_apply, broadcastTo_1b_ab_apply, shapeCast_self]
  show y (ix2 p d) * Ideal.rsqrt (Ideal.div (shapeCast ⟨2, ![R, 1]⟩ ss hcol (ix2 p (0 : Fin 1))) _ + _) * _ = _
  rw [Cert.Column.shapeCast_a_a1_apply]
  rfl

/-- The column of row scales: `c / max(max_k |u p k|, t)`, the maximum taken by the lane reduction from the
    word `0xFF800000`. -/
def scaleCol (u : FVec Ideal ⟨2, ![R, C]⟩ .f32) (wt wc : BitVec (FTy.f32).bits)
    (hcol : (⟨1, ![R]⟩ : Shape).ShapeCasts ⟨2, ![R, 1]⟩) (hred : (⟨2, ![R, C]⟩ : Shape).Reduces [1] ⟨1, ![R]⟩) :
    FVec Ideal ⟨2, ![R, 1]⟩ .f32 :=
  divf (broadcast ⟨2, ![R, 1]⟩ (Scalar.ofBits .f32 wc))
    (maximumf (shapeCast ⟨2, ![R, 1]⟩ (multiReduction .maximumf [1] ⟨1, ![R]⟩ (absf u) 0xFF800000#32 hred (.inl rfl) rfl) hcol)
      (broadcast ⟨2, ![R, 1]⟩ (Scalar.ofBits .f32 wt)))

theorem scaleCol_apply (hbot : Ideal.ofBits .f32 0xFF800000#32 = ⊥) (u : FVec Ideal ⟨2, ![R, C]⟩ .f32)
    (wt wc : BitVec (FTy.f32).bits) (hcol hred) (p : Fin R) :
    scaleCol u wt wc hcol hred (ix2 p (0 : Fin 1))
      = rowScale (Ideal.ofBits .f32 wc) (Ideal.ofBits .f32 wt) (fun k : Fin C => u (ix2 p k)) := by
  unfold scaleCol rowScale rowMax mag
  show Ideal.div _ (max (shapeCast ⟨2, ![R, 1]⟩ _ hcol (ix2 p (0 : Fin 1))) _) = _
  rw [Cert.Column.shapeCast_a_a1_apply]
  -- the lane reduction is the fold of `max` over the row, from the value of its starting word
  have hmax := Cert.AxisFold.row_max (absf u) 0xFF800000#32 hred (.inl rfl) rfl p
  rw [hbot] at hmax
  exact congrArg (fun z => Ideal.div (Ideal.ofBits .f32 wc) (max z (Ideal.ofBits .f32 wt))) hmax

/-- The rows fake-quantised with their scales and narrowed to sixteen bits. -/
def quantRows (u : FVec Ideal ⟨2, ![R, C]⟩ .f32) (wt wc wlo whi : BitVec (FTy.f32).bits)
    (hcol : (⟨1, ![R]⟩ : Shape).ShapeCasts ⟨2, ![R, 1]⟩) (hacross : (⟨2, ![R, 1]⟩ : Shape).Broadcasts ⟨2, ![R, C]⟩)
    (hred : (⟨2, ![R, C]⟩ : Shape).Reduces [1] ⟨1, ![R]⟩) (hlt : FTy.bits .bf16 < FTy.bits .f32) :
    FVec Ideal ⟨2, ![R, C]⟩ .bf16 :=
  truncf .bf16
    (divf
      (minimumf (broadcast ⟨2, ![R, C]⟩ (Scalar.ofBits .f32 whi))
        (maximumf (broadcast ⟨2, ![R, C]⟩ (Scalar.ofBits .f32 wlo))
          (roundeven (mulf u (broadcastTo ⟨2, ![R, C]⟩ (scaleCol u wt wc hcol hred) hacross)))))
      (broadcastTo ⟨2, ![R, C]⟩ (scaleCol u wt wc hcol hred) hacross)) hlt

theorem quantRows_apply (hbot : Ideal.ofBits .f32 0xFF800000#32 = ⊥) (u : FVec Ideal ⟨2, ![R, C]⟩ .f32)
    (wt wc wlo whi : BitVec (FTy.f32).bits) (hcol hacross hred hlt) (p : Fin R) (d : Fin C) :
    quantRows u wt wc wlo whi hcol hacross hred hlt (ix2 p d)
      = rowQuant (Ideal.ofBits .f32 wlo) (Ideal.ofBits .f32 whi) (Ideal.ofBits .f32 wc) (Ideal.ofBits .f32 wt)
          (fun k : Fin C => u (ix2 p k)) d := by
  unfold quantRows rowQuant rne
  show Ideal.div (min _ (max _ (Ideal.liftRound Ideal.roundHalfEven
      (u (ix2 p d) * broadcastTo ⟨2, ![R, C]⟩ (scaleCol u wt wc hcol hred) hacross (ix2 p d)))))
      (broadcastTo ⟨2, ![R, C]⟩ (scaleCol u wt wc hcol hred) hacross (ix2 p d)) = _
  rw [Cert.Column.broadcastTo_a1_ab_apply, scaleCol_apply hbot]
  rfl

end Cert.QuantRows

end
-- ==== Proof.LibPlainDot.lean ====
/-
  A plain matrix product read at an index, on the extended reals.

  For dimension numbers that contract the left operand's second axis against the right operand's
  first, with no batch axes (an `M×K` matrix times a `K×N` matrix), entry `(p, c)` of the product is
  `Σ_{q < K} l[p, q] · r[q, c]`. The library states a product as a sum over the contraction shape's
  multi-indices; here that sum is re-indexed by the one contracted coordinate, once, for every record
  of this form and every extent.
-/
import Idealize.ShloMosaic.PureOps.Ideal.Laws
import Idealize.ShloMosaic.Lib.ValueIdx

noncomputable section

open scoped BigOperators

namespace Cert.PlainDot

open Idealize.ShloMosaic Idealize.ShloMosaic.ValueIdx

variable {M K N : Nat} (d : DotDims ⟨2, ![M, K]⟩ ⟨2, ![K, N]⟩ ⟨2, ![M, N]⟩)

/-- The dimension numbers of a plain product: contract left axis 1 with right axis 0, keep left axis 0 and
    right axis 1 in that order, no batch axes. -/
structure IsPlain : Prop where
  lc : d.lhsContracting = [1]
  rc : d.rhsContracting = [0]
  ln : d.lhsNonContracting = [0]
  rn : d.rhsNonContracting = [1]
  lb : d.lhsBatch = []
  rb : d.rhsBatch = []

variable {d}

/-- The contraction shape has one axis. -/
theorem contr_rank (h : IsPlain d) : d.contr.rank = 1 := by rw [d.rank_contr, h.lc]; rfl

/-- That axis has the shared extent `K`. -/
theorem contr_size (h : IsPlain d) : d.contr.size ⟨0, by rw [contr_rank h]; exact Nat.one_pos⟩ = K := by
  rw [d.size_contr 0 (by rw [h.lc]; exact Nat.one_pos), List.getElem_of_eq h.lc]
  rfl

/-- A coordinate of an index depends only on the axis number. -/
private theorem coord_congr {s : Shape} (j : s.Idx) (p q : Nat) (hp : p < s.rank) (hq : q < s.rank) (e : p = q) :
    (j ⟨p, hp⟩).val = (j ⟨q, hq⟩).val := by subst e; rfl

/-- The left operand is read at the result's row. -/
theorem lhs_row (h : IsPlain d) (j : (⟨2, ![M, N]⟩ : Shape).Idx) (k : d.contr.Idx) : (d.lhsIdx j k 0).val = (j 0).val := by
  unfold DotDims.lhsIdx
  rw [dif_neg (by rw [h.lb]; exact List.not_mem_nil), dif_pos (by rw [h.ln]; exact List.mem_singleton.mpr rfl)]
  simp only [Fin.val_cast]
  exact coord_congr j _ _ _ _ (by rw [h.lb, h.ln]; rfl)

/-- The right operand is read at the result's column. -/
theorem rhs_col (h : IsPlain d) (j : (⟨2, ![M, N]⟩ : Shape).Idx) (k : d.contr.Idx) : (d.rhsIdx j k 1).val = (j 1).val := by
  unfold DotDims.rhsIdx
  rw [dif_neg (by rw [h.rb]; exact List.not_mem_nil), dif_pos (by rw [h.rn]; exact List.mem_singleton.mpr rfl)]
  simp only [Fin.val_cast]
  exact coord_congr j _ _ _ _ (by rw [h.lb, h.ln, h.rn]; rfl)

/-- The library's sum over contraction multi-indices is the sum over the contracted coordinate. -/
theorem sum_contr (h : IsPlain d) (l : (⟨2, ![M, K]⟩ : Shape).Idx → EReal) (r : (⟨2, ![K, N]⟩ : Shape).Idx → EReal)
    (j : (⟨2, ![M, N]⟩ : Shape).Idx) :
    ∑ k : d.contr.Idx, l (d.lhsIdx j k) * r (d.rhsIdx j k) = ∑ q : Fin K, l (ix2 (j 0) q) * r (ix2 q (j 1)) := by
  have hr : d.contr.rank = 1 := contr_rank h
  have hs : d.contr.size ⟨0, by omega⟩ = K := contr_size h
  rw [← Equiv.sum_comp (contrEquiv1 d K hr hs).symm]
  refine Finset.sum_congr rfl fun q _ => ?_
  have hq := contrEquiv1_symm_val d K hr hs q
  have el : d.lhsIdx j ((contrEquiv1 d K hr hs).symm q) = ix2 (j 0) q := funext fun a => Fin.ext (by
    match a with
    | ⟨0, _⟩ => exact lhs_row h j _
    | ⟨1, _⟩ => exact (d.lhsIdx_val_of_single h.lc j _).trans hq)
  have er : d.rhsIdx j ((contrEquiv1 d K hr hs).symm q) = ix2 q (j 1) := funext fun a => Fin.ext (by
    match a with
    | ⟨0, _⟩ => exact (d.rhsIdx_val_of_single h.rc j _).trans hq
    | ⟨1, _⟩ => exact rhs_col h j _)
  rw [el, er]
  rfl

/-- A `tpu.matmul` into a zero accumulator, at entry `(p, c)`. -/
theorem matmul_zero_apply (h : IsPlain d) (prec : Option ContractPrecision) {φ₁ φ₂ : FTy}
    (l : FVec Ideal ⟨2, ![M, K]⟩ φ₁) (r : FVec Ideal ⟨2, ![K, N]⟩ φ₂) (p : Fin M) (c : Fin N) :
    matmul d prec l r (constant ⟨2, ![M, N]⟩ .f32 0x00000000#32) (ix2 p c) = ∑ q : Fin K, l (ix2 p q) * r (ix2 q c) :=
  (Ideal.matmul_constant_zero_apply d prec l r (ix2 p c)).trans (sum_contr h l r (ix2 p c))

/-- The host's `dot_general`, at entry `(p, c)`. -/
theorem dotGeneral_apply (h : IsPlain d) (prec : Option ContractPrecision) {φ₁ φ₂ : FTy}
    (l : FVec Ideal ⟨2, ![M, K]⟩ φ₁) (r : FVec Ideal ⟨2, ![K, N]⟩ φ₂) (p : Fin M) (c : Fin N) :
    Host.dotGeneral d prec l r (ix2 p c) = ∑ q : Fin K, l (ix2 p q) * r (ix2 q c) :=
  (Ideal.dotGeneral_apply d prec .single l r (ix2 p c)).trans (sum_contr h l r (ix2 p c))

end Cert.PlainDot

end
-- ==== Proof.KerBody.lean ====
/-
  The kernel body's arithmetic read at one entry of a block.

  At a grid point the body holds a [256, 768] block of tokens `x`, the first gain as a row `g₁` [1, 768], the first
  weights already quantised and transposed `wT₁` [768, 4096], the second gain row `g₂` [1, 2048] and the second
  weights `wT₂` [2048, 768]. Row p of the block is normalised, scaled by the gain and fake-quantised; its product
  with `wT₁` gives 4096 numbers, of which entry j (the "up" half) and entry 2048 + j (the "gate" half) combine to
  `gate · logistic(gate) · up`; that row of 2048 numbers is normalised with its own sum of squares, quantised, and
  multiplied by `wT₂`. Each stage is stated at explicit coordinates in the specification's terms; the only sums
  are the two products' and the rows' sums of squares, and they stay symbolic.
-/
import proofs.«116928_j46377056862386_1_alg».proof.Proof.Gen.KernelIdeal.Skeleton
import proofs.«116928_j46377056862386_1_alg».proof.Proof.QuantRows
import proofs.«116928_j46377056862386_1_alg».proof.Proof.LibPlainDot
import Idealize.ShloMosaic.Lib.ValueLayout

noncomputable section

namespace Cert.KernelIdeal.Body

open Cert.KernelIdeal Cert.KernelIdeal.Facts₀ Cert.KernelIdeal.Facts
open Idealize.ShloMosaic Idealize.ShloMosaic.ValueIdx Cert.BitLinear Cert.QuantRows

/-! ## The first layer -/

/-- The sums of squares of the block's rows. -/
def sq₁ (x : Vec Ideal S256x768 .f32) : FVec Ideal S256 .f32 :=
  multiReduction .add [1] S256
    (mulf (shapeCast S256x768 x shapeCasts_S256x768_S256x768) (shapeCast S256x768 x shapeCasts_S256x768_S256x768))
    0x00000000#32 reduces_S256x768_S256 (.inl rfl) rfl

theorem sq₁_apply (x : Vec Ideal S256x768 .f32) (p : Fin 256) :
    sq₁ x (ix1 p) = ∑ k : Fin 768, x (ix2 p k) * x (ix2 p k) := by
  unfold sq₁
  refine (Cert.AxisFold.row_sum _ reduces_S256x768_S256 (.inl rfl) rfl p).trans ?_
  refine Finset.sum_congr rfl fun k _ => ?_
  rw [shapeCast_self]
  rfl

/-- The block's rows normalised and scaled by the first gain. -/
def u₁ (x : Vec Ideal S256x768 .f32) (g : Vec Ideal S1x768 .f32) : FVec Ideal S256x768 .f32 :=
  normRows (R := 256) (C := 768) (shapeCast S256x768 x shapeCasts_S256x768_S256x768) (sq₁ x) g 0x44400000#32 0x358637BD#32
    shapeCasts_S256_S256x1 broadcasts_S256x1_S256x768 shapeCasts_S1x768_S1x768 broadcasts_S1x768_S256x768

theorem u₁_apply (x : Vec Ideal S256x768 .f32) (g : Vec Ideal S1x768 .f32) (p : Fin 256) (d : Fin 768) :
    u₁ x g (ix2 p d) = normed K768 (fun k : Fin 768 => x (ix2 p k)) (fun k : Fin 768 => g (ix2 (0 : Fin 1) k)) d := by
  unfold u₁
  rw [normRows_apply]
  unfold normRow normed rms
  rw [sq₁_apply, shapeCast_self]
  rfl

/-- The first product: the quantised rows against the first weights, 4096 numbers per row. -/
def h₁ (x : Vec Ideal S256x768 .f32) (g : Vec Ideal S1x768 .f32) (wT : Vec Ideal S768x4096 .bf16) : FVec Ideal S256x4096 .f32 :=
  matmul dot_S256x768_S768x4096_S256x4096_1_0_0_1_n_n none
    (quantRows (R := 256) (C := 768) (u₁ x g) 0x3727C5AC#32 0x42FE0000#32 0xC3000000#32 0x42FE0000#32
      shapeCasts_S256_S256x1 broadcasts_S256x1_S256x768 reduces_S256x768_S256 bitsLt_bf16_f32)
    (shapeCast S768x4096 wT shapeCasts_S768x4096_S768x4096 : FVec Ideal S768x4096 .bf16) (constant S256x4096 .f32 0x00000000#32)

/-- The logistic function acts entry by entry. -/
theorem logistic_apply {s : Shape} {φ : FTy} (a : FVec Ideal s φ) (i : s.Idx) : logistic a i = Ideal.logistic (a i) := rfl

/-- Output `o` of the first layer for a row `x` under the gain `g`, against weights given transposed. -/
def hidden (x g : Fin 768 → EReal) (wT : (⟨2, ![768, 4096]⟩ : Shape).Idx → EReal) (o : Fin 4096) : EReal :=
  ∑ d : Fin 768, rowQuant K768.lo K768.hi K768.c K768.t (normed K768 x g) d * wT (ix2 d o)

section Words

variable (hbot : Ideal.ofBits .f32 0xFF800000#32 = ⊥) (hlo : Ideal.ofBits .f32 0xC3000000#32 = ((-128 : ℝ) : EReal))
  (hhi : Ideal.ofBits .f32 0x42FE0000#32 = ((127 : ℝ) : EReal))

include hbot hlo hhi

theorem h₁_apply (x : Vec Ideal S256x768 .f32) (g : Vec Ideal S1x768 .f32) (wT : Vec Ideal S768x4096 .bf16)
    (p : Fin 256) (o : Fin 4096) :
    h₁ x g wT (ix2 p o) = hidden (fun k : Fin 768 => x (ix2 p k)) (fun k : Fin 768 => g (ix2 (0 : Fin 1) k)) wT o := by
  unfold h₁ hidden
  refine (Cert.PlainDot.matmul_zero_apply (d := dot_S256x768_S768x4096_S256x4096_1_0_0_1_n_n) ⟨rfl, rfl, rfl, rfl, rfl, rfl⟩ none _ _ p o).trans ?_
  refine Finset.sum_congr rfl fun d _ => ?_
  rw [quantRows_apply hbot, shapeCast_self, hlo]
  simp only [u₁_apply]
  -- the row's scale keeps the word 127 as its numerator; as a clipping bound the same word is the number 127
  show rowQuant _ (Ideal.ofBits .f32 0x42FE0000#32) _ _ _ d * _ = rowQuant _ K768.hi _ _ _ d * _
  rw [show K768.hi = Ideal.ofBits .f32 0x42FE0000#32 from hhi.symm]
  rfl

set_option maxRecDepth 65536 in
/-- The first payload: `gate · logistic(gate) · up` of the first product's two halves. -/
theorem pay2_apply (x : Vec Ideal S256x768 .f32) (g : Vec Ideal S1x768 .f32) (wT : Vec Ideal S768x4096 .bf16)
    (p : Fin 256) (j : Fin 2048) :
    Gen.k0_pay2 (F := Ideal) x g wT (ix2 p j)
      = swiglu (hidden (fun k : Fin 768 => x (ix2 p k)) (fun k : Fin 768 => g (ix2 (0 : Fin 1) k)) wT (upIx j))
          (hidden (fun k : Fin 768 => x (ix2 p k)) (fun k : Fin 768 => g (ix2 (0 : Fin 1) k)) wT (gateIx j)) := by
  have e : Gen.k0_pay2 (F := Ideal) x g wT
      = mulf (mulf (extractStridedSlice S256x2048 ![0, 2048] (h₁ x g wT) slices_S256x4096_o0_2048_S256x2048)
            (logistic (extractStridedSlice S256x2048 ![0, 2048] (h₁ x g wT) slices_S256x4096_o0_2048_S256x2048)))
          (extractStridedSlice S256x2048 ![0, 0] (h₁ x g wT) slices_S256x4096_o0_0_S256x2048) := rfl
  rw [e, mulf_apply, mulf_apply, logistic_apply]
  rw [slice2_axis1_apply 2048 (h₁ x g wT) _ p j (gateIx j) rfl,
    slice2_axis1_apply 0 (h₁ x g wT) _ p j (upIx j) (Nat.zero_add _).symm,
    h₁_apply hbot hlo hhi, h₁_apply hbot hlo hhi]
  rfl

/-- The second payload: the sums of squares of the gated rows. -/
theorem pay3_apply (x : Vec Ideal S256x768 .f32) (g : Vec Ideal S1x768 .f32) (wT : Vec Ideal S768x4096 .bf16) (p : Fin 256) :
    Gen.k0_pay3 (F := Ideal) x g wT (ix1 p)
      = ∑ j : Fin 2048, Gen.k0_pay2 (F := Ideal) x g wT (ix2 p j) * Gen.k0_pay2 (F := Ideal) x g wT (ix2 p j) := by
  unfold Gen.k0_pay3
  exact Cert.AxisFold.row_sum _ reduces_S256x2048_S256 (.inl rfl) rfl p

/-! ## The second layer -/

/-- Output `c` of the second layer for a row `y` under the gain `g`, against weights given transposed. -/
def outAt (y g : Fin 2048 → EReal) (wT : (⟨2, ![2048, 768]⟩ : Shape).Idx → EReal) (c : Fin 768) : EReal :=
  ∑ k : Fin 2048, rowQuant K2048.lo K2048.hi K2048.c K2048.t (normed K2048 y g) k * wT (ix2 k c)

set_option maxRecDepth 65536 in
/-- The third payload, the stored block: given the gated rows `y` and a vector `ss` that holds their sums of
    squares, entry (p, c) is the second layer's output `c` of row p. -/
theorem pay1_apply (y : FVec Ideal S256x2048 .f32) (ss : FVec Ideal S256 .f32) (g : Vec Ideal S1x2048 .f32)
    (wT : Vec Ideal S2048x768 .bf16) (p : Fin 256) (c : Fin 768)
    (hss : ss (ix1 p) = ∑ j : Fin 2048, y (ix2 p j) * y (ix2 p j)) :
    Gen.k0_pay1 (F := Ideal) y ss g wT (ix2 p c)
      = outAt (fun j : Fin 2048 => y (ix2 p j)) (fun j : Fin 2048 => g (ix2 (0 : Fin 1) j)) wT c := by
  have e : Gen.k0_pay1 (F := Ideal) y ss g wT
      = matmul dot_S256x2048_S2048x768_S256x768_1_0_0_1_n_n none
          (quantRows (R := 256) (C := 2048)
            (normRows (R := 256) (C := 2048) y ss g 0x45000000#32 0x358637BD#32
              shapeCasts_S256_S256x1 broadcasts_S256x1_S256x2048 shapeCasts_S1x2048_S1x2048 broadcasts_S1x2048_S256x2048)
            0x3727C5AC#32 0x42FE0000#32 0xC3000000#32 0x42FE0000#32
            shapeCasts_S256_S256x1 broadcasts_S256x1_S256x2048 reduces_S256x2048_S256 bitsLt_bf16_f32)
          (shapeCast S2048x768 wT shapeCasts_S2048x768_S2048x768 : FVec Ideal S2048x768 .bf16) (constant S256x768 .f32 0x00000000#32) := rfl
  rw [e]
  unfold outAt
  refine (Cert.PlainDot.matmul_zero_apply (d := dot_S256x2048_S2048x768_S256x768_1_0_0_1_n_n) ⟨rfl, rfl, rfl, rfl, rfl, rfl⟩ none _ _ p c).trans ?_
  refine Finset.sum_congr rfl fun k _ => ?_
  rw [quantRows_apply hbot, shapeCast_self, hlo]
  simp only [normRows_apply]
  unfold normRow
  rw [hss]
  show rowQuant _ (Ideal.ofBits .f32 0x42FE0000#32) _ _ _ k * _ = rowQuant _ K2048.hi _ _ _ k * _
  rw [show K2048.hi = Ideal.ofBits .f32 0x42FE0000#32 from hhi.symm]
  rfl

/-- The stored block as a whole: entry (p, c) from the five input blocks. -/
theorem stored_apply (x : Vec Ideal S256x768 .f32) (g₁ : Vec Ideal S1x768 .f32) (wT₁ : Vec Ideal S768x4096 .bf16)
    (g₂ : Vec Ideal S1x2048 .f32) (wT₂ : Vec Ideal S2048x768 .bf16) (p : Fin 256) (c : Fin 768) :
    Gen.k0_pay1 (F := Ideal) (Gen.k0_pay2 x g₁ wT₁) (Gen.k0_pay3 x g₁ wT₁) g₂ wT₂ (ix2 p c)
      = outAt (fun j : Fin 2048 =>
            swiglu (hidden (fun k : Fin 768 => x (ix2 p k)) (fun k : Fin 768 => g₁ (ix2 (0 : Fin 1) k)) wT₁ (upIx j))
              (hidden (fun k : Fin 768 => x (ix2 p k)) (fun k : Fin 768 => g₁ (ix2 (0 : Fin 1) k)) wT₁ (gateIx j)))
          (fun j : Fin 2048 => g₂ (ix2 (0 : Fin 1) j)) wT₂ c := by
  rw [pay1_apply hbot hlo hhi _ _ g₂ wT₂ p c (pay3_apply hbot hlo hhi x g₁ wT₁ p)]
  simp only [pay2_apply hbot hlo hhi]

end Words

end Cert.KernelIdeal.Body

end
-- ==== Proof.KerValue.lean ====
/-
  The kernel program's result array, named.

  The program runs its body at 128 points. At point t the body reads rows t · 256 … t · 256 + 255 of the tokens
  (flattened to [32768, 768]: row b · 4096 + s is token (b, s)) and the whole of the two quantised, transposed weight
  tensors and of the two gain rows; it stores a [256, 768] block, which is written back as the same rows of a flat
  [32768, 768] array. Entry (p, q) of the stored block is the network's output q for the token in row t · 256 + p,
  products taken of the quantised values directly. The 128 blocks fill the flat array, so after the last point it
  holds at (r, q) output q for token (r / 4096, r mod 4096); the one operation after the points views the flat array
  as [8, 4096, 768], which puts that number at (b, s, q) with r = b · 4096 + s. What the five input arrays hold when
  the points start is a hypothesis here, stated in terms of the argument arrays.
-/
import proofs.«116928_j46377056862386_1_alg».proof.Proof.Gen.KernelIdeal.Frame
import proofs.«116928_j46377056862386_1_alg».proof.Proof.KerBody
import proofs.«116928_j46377056862386_1_alg».proof.Proof.BitLinear
import proofs.«116928_j46377056862386_1_alg».proof.Proof.Words
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws

noncomputable section

namespace Cert.KernelIdeal.KerValue

open Cert.KernelIdeal Cert.KernelIdeal.Gen Idealize.ShloMosaic Idealize.ShloMosaic.TcCoe Idealize.SL.Sem
open Idealize.ShloMosaic.ValueIdx Cert.BitLinear
open Idealize.ShloMosaic.Pipeline (Dat)

variable (m : (ℓ : Loc nD τ sig) → Buf (Elt Ideal) ℓ) (ρ : Dev nD → PrngReg)

/-- The five argument arrays on core c, as functions from indices to extended reals. -/
abbrev a0 (c : Dev nD) : (⟨3, ![8, 4096, 768]⟩ : Shape).Idx → EReal := m ((c.tc : Thread nD τ).loc main_arg0)
abbrev a1 (c : Dev nD) : (⟨2, ![4096, 768]⟩ : Shape).Idx → EReal := m ((c.tc : Thread nD τ).loc main_arg1)
abbrev a2 (c : Dev nD) : (⟨1, ![768]⟩ : Shape).Idx → EReal := m ((c.tc : Thread nD τ).loc main_arg2)
abbrev a3 (c : Dev nD) : (⟨2, ![768, 2048]⟩ : Shape).Idx → EReal := m ((c.tc : Thread nD τ).loc main_arg3)
abbrev a4 (c : Dev nD) : (⟨1, ![2048]⟩ : Shape).Idx → EReal := m ((c.tc : Thread nD τ).loc main_arg4)

/-- What the region finds in its five input arrays on core c, in terms of the argument arrays: the tokens
    flattened to rows b · 4096 + s; each weight tensor quantised with its own scale and transposed; each gain as
    a one-row matrix. -/
structure Entry (c : Dev nD) : Prop where
  x : ∀ (b : Fin 8) (s : Fin 4096) (d : Fin 768),
    (Gen.V m c main_v0 : S32768x768.Idx → EReal)
        (ix2 (⟨b.val * 4096 + s.val, by have := b.isLt; have := s.isLt; omega⟩ : Fin 32768) d) = a0 m c (ix3 b s d)
  w₁ : ∀ (d : Fin 768) (o : Fin 4096),
    (Gen.V m c main_v24 : S768x4096.Idx → EReal) (ix2 d o)
      = weightQuant K768.lo' K768.hi' (tensorScale 0x4A400000#32 (a1 m c)) (a1 m c (ix2 o d))
  g₁ : ∀ d : Fin 768, (Gen.V m c main_v27 : S1x768.Idx → EReal) (ix2 (0 : Fin 1) d) = a2 m c (ix1 d)
  w₂ : ∀ (k : Fin 2048) (c' : Fin 768),
    (Gen.V m c main_v26 : S2048x768.Idx → EReal) (ix2 k c')
      = weightQuant K2048.lo' K2048.hi' (tensorScale 0x49C00000#32 (a3 m c)) (a3 m c (ix2 c' k))
  g₂ : ∀ k : Fin 2048, (Gen.V m c main_v28 : S1x2048.Idx → EReal) (ix2 (0 : Fin 1) k) = a4 m c (ix1 k)

/-- The whole flat result: row r = b · 4096 + s, column c holds the network's output c for token (b, s). -/
def flat (c : Dev nD) : S32768x768.Idx → EReal := fun i =>
  resultArr (a0 m c) (a1 m c) (a2 m c) (a3 m c) (a4 m c)
    (ix3 (⟨(i 0).val / 4096, by have := idx2_lt0 i; omega⟩ : Fin 8)
      (⟨(i 0).val % 4096, Nat.mod_lt _ (by decide)⟩ : Fin 4096) (⟨(i 1).val, idx2_lt1 i⟩ : Fin 768))

theorem hz : (![0, 0] : Fin 2 → Nat) = fun _ => 0 := funext fun a => by fin_cases a <;> rfl

/-! ## The printed index maps, decided over the 128 grid points -/

/-- Windows 0 (the tokens) and 5 (the result) move down their arrays one block of 256 rows per point; windows
    1 to 4 (the weights and the gains) stay on their whole arrays. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-! ## The input blocks at a point, entry by entry -/

/-- Row p of the token block at point t is the row of token (b, s) when t · 256 + p = b · 4096 + s. -/
theorem x_block (c : Dev nD) (H : Entry m c) (t : Fin cfg0.N) (p : Fin 256) (d : Fin 768) (b : Fin 8) (s : Fin 4096)
    (hr : t.val * 256 + p.val = b.val * 4096 + s.val) :
    (iblk m c 0 t : Vec Ideal S256x768 .f32) (ix2 p d) = a0 m c (ix3 b s d) := by
  rw [← H.x b s d]
  unfold iblk
  rw [View.read_apply]
  show (V m c main_v0 : S32768x768.Idx → EReal) _ = (V m c main_v0 : S32768x768.Idx → EReal) _
  refine congrArg (V m c main_v0 : S32768x768.Idx → EReal) (funext fun a => Fin.ext ?_)
  obtain ⟨e0, e1, -⟩ := idx_facts t
  match a with
  | ⟨0, _⟩ => show win0_0.index t (0 : Fin 2) * 256 + 1 * p.val = b.val * 4096 + s.val; rw [e0, Nat.one_mul]; exact hr
  | ⟨1, _⟩ => show win0_0.index t (1 : Fin 2) * 768 + 1 * d.val = d.val; rw [e1, Nat.zero_mul, Nat.zero_add, Nat.one_mul]

/-- The first weight block is the whole quantised, transposed tensor at every point. -/
theorem w₁_block (c : Dev nD) (H : Entry m c) (t : Fin cfg0.N) (d : Fin 768) (o : Fin 4096) :
    (iblk m c 1 t : Vec Ideal S768x4096 .bf16) (ix2 d o)
      = weightQuant K768.lo' K768.hi' (tensorScale 0x4A400000#32 (a1 m c)) (a1 m c (ix2 o d)) := by
  rw [← H.w₁ d o]
  unfold iblk
  rw [View.read_apply]
  show (V m c main_v24 : S768x4096.Idx → EReal) _ = (V m c main_v24 : S768x4096.Idx → EReal) _
  refine congrArg (V m c main_v24 : S768x4096.Idx → EReal) (funext fun a => Fin.ext ?_)
  obtain ⟨-, -, e0, e1, -⟩ := idx_facts t
  match a with
  | ⟨0, _⟩ => show win0_1.index t (0 : Fin 2) * 768 + 1 * d.val = d.val; rw [e0, Nat.zero_mul, Nat.zero_add, Nat.one_mul]
  | ⟨1, _⟩ => show win0_1.index t (1 : Fin 2) * 4096 + 1 * o.val = o.val; rw [e1, Nat.zero_mul, Nat.zero_add, Nat.one_mul]

/-- The first gain block is the whole gain row at every point. -/
theorem g₁_block (c : Dev nD) (H : Entry m c) (t : Fin cfg0.N) (d : Fin 768) :
    (iblk m c 2 t : Vec Ideal S1x768 .f32) (ix2 (0 : Fin 1) d) = a2 m c (ix1 d) := by
  rw [← H.g₁ d]
  unfold iblk
  rw [View.read_apply]
  show (V m c main_v27 : S1x768.Idx → EReal) _ = (V m c main_v27 : S1x768.Idx → EReal) _
  refine congrArg (V m c main_v27 : S1x768.Idx → EReal) (funext fun a => Fin.ext ?_)
  obtain ⟨-, -, -, -, e0, e1, -⟩ := idx_facts t
  match a with
  | ⟨0, _⟩ => show win0_2.index t (0 : Fin 2) * 1 + 1 * (0 : Fin 1).val = (0 : Fin 1).val; rw [e0, Nat.zero_mul, Nat.zero_add, Nat.one_mul]
  | ⟨1, _⟩ => show win0_2.index t (1 : Fin 2) * 768 + 1 * d.val = d.val; rw [e1, Nat.zero_mul, Nat.zero_add, Nat.one_mul]

/-- The second weight block is the whole quantised, transposed tensor at every point. -/
theorem w₂_block (c : Dev nD) (H : Entry m c) (t : Fin cfg0.N) (k : Fin 2048) (c' : Fin 768) :
    (iblk m c 3 t : Vec Ideal S2048x768 .bf16) (ix2 k c')
      = weightQuant K2048.lo' K2048.hi' (tensorScale 0x49C00000#32 (a3 m c)) (a3 m c (ix2 c' k)) := by
  rw [← H.w₂ k c']
  unfold iblk
  rw [View.read_apply]
  show (V m c main_v26 : S2048x768.Idx → EReal) _ = (V m c main_v26 : S2048x768.Idx → EReal) _
  refine congrArg (V m c main_v26 : S2048x768.Idx → EReal) (funext fun a => Fin.ext ?_)
  obtain ⟨-, -, -, -, -, -, e0, e1, -⟩ := idx_facts t
  match a with
  | ⟨0, _⟩ => show win0_3.index t (0 : Fin 2) * 2048 + 1 * k.val = k.val; rw [e0, Nat.zero_mul, Nat.zero_add, Nat.one_mul]
  | ⟨1, _⟩ => show win0_3.index t (1 : Fin 2) * 768 + 1 * c'.val = c'.val; rw [e1, Nat.zero_mul, Nat.zero_add, Nat.one_mul]

/-- The second gain block is the whole gain row at every point. -/
theorem g₂_block (c : Dev nD) (H : Entry m c) (t : Fin cfg0.N) (k : Fin 2048) :
    (iblk m c 4 t : Vec Ideal S1x2048 .f32) (ix2 (0 : Fin 1) k) = a4 m c (ix1 k) := by
  rw [← H.g₂ k]
  unfold iblk
  rw [View.read_apply]
  show (V m c main_v28 : S1x2048.Idx → EReal) _ = (V m c main_v28 : S1x2048.Idx → EReal) _
  refine congrArg (V m c main_v28 : S1x2048.Idx → EReal) (funext fun a => Fin.ext ?_)
  obtain ⟨-, -, -, -, -, -, -, -, e0, e1, -⟩ := idx_facts t
  match a with
  | ⟨0, _⟩ => show win0_4.index t (0 : Fin 2) * 1 + 1 * (0 : Fin 1).val = (0 : Fin 1).val; rw [e0, Nat.zero_mul, Nat.zero_add, Nat.one_mul]
  | ⟨1, _⟩ => show win0_4.index t (1 : Fin 2) * 2048 + 1 * k.val = k.val; rw [e1, Nat.zero_mul, Nat.zero_add, Nat.one_mul]

/-! ## One stored entry, in the specification's terms -/

/-- Entry (p, q) of the block the body stores, when row p of the token block is token (b, s)'s row, the two weight
    blocks are the quantised tensors transposed and the gain blocks are the gains: the network's output q for
    token (b, s), products taken of the quantised values directly. -/
theorem stored_entry (A0 : (⟨3, ![8, 4096, 768]⟩ : Shape).Idx → EReal) (A1 : (⟨2, ![4096, 768]⟩ : Shape).Idx → EReal)
    (A2 : (⟨1, ![768]⟩ : Shape).Idx → EReal) (A3 : (⟨2, ![768, 2048]⟩ : Shape).Idx → EReal)
    (A4 : (⟨1, ![2048]⟩ : Shape).Idx → EReal)
    (x : Vec Ideal S256x768 .f32) (wT₁ : Vec Ideal S768x4096 .bf16) (g₁ : Vec Ideal S1x768 .f32)
    (wT₂ : Vec Ideal S2048x768 .bf16) (g₂ : Vec Ideal S1x2048 .f32)
    (b : Fin 8) (s : Fin 4096) (p : Fin 256) (q : Fin 768)
    (hx : ∀ d : Fin 768, x (ix2 p d) = A0 (ix3 b s d))
    (hw₁ : ∀ (d : Fin 768) (o : Fin 4096),
      wT₁ (ix2 d o) = weightQuant K768.lo' K768.hi' (tensorScale 0x4A400000#32 A1) (A1 (ix2 o d)))
    (hg₁ : ∀ d : Fin 768, g₁ (ix2 (0 : Fin 1) d) = A2 (ix1 d))
    (hw₂ : ∀ (k : Fin 2048) (c' : Fin 768),
      wT₂ (ix2 k c') = weightQuant K2048.lo' K2048.hi' (tensorScale 0x49C00000#32 A3) (A3 (ix2 c' k)))
    (hg₂ : ∀ k : Fin 2048, g₂ (ix2 (0 : Fin 1) k) = A4 (ix1 k)) :
    Gen.k0_pay1 (F := Ideal) (Gen.k0_pay2 x g₁ wT₁) (Gen.k0_pay3 x g₁ wT₁) g₂ wT₂ (ix2 p q)
      = directAt A0 A1 A2 A3 A4 b s q := by
  rw [Cert.KernelIdeal.Body.stored_apply Cert.Words.ofBits_neg_inf Cert.Words.ofBits_neg_128 Cert.Words.ofBits_127]
  have e1 : (fun k : Fin 768 => x (ix2 p k)) = fun k : Fin 768 => A0 (ix3 b s k) := funext hx
  have e2 : (fun k : Fin 768 => g₁ (ix2 (0 : Fin 1) k)) = fun k : Fin 768 => A2 (ix1 k) := funext hg₁
  have e3 : (fun j : Fin 2048 => g₂ (ix2 (0 : Fin 1) j)) = fun k : Fin 2048 => A4 (ix1 k) := funext hg₂
  rw [e1, e2, e3]
  unfold directAt netDirect Cert.KernelIdeal.Body.outAt Cert.KernelIdeal.Body.hidden layerDirect
  simp only [hw₁, hw₂]

/-! ## What a point writes back -/

/-- Point t writes back block t of the flat result: rows t · 256 … t · 256 + 255. -/
theorem flushed_eq (c : Dev nD) (H : Entry m c) (t : Fin cfg0.N) :
    (dats m 0 c).flushed 5 t = ((cfg0.win 5).blk t).view.read (Elt Ideal) (flat m c) := by
  show (cfg0.win 5).cut (grid0.coords t) ((dats m 0 c).after 5 t) = _
  rw [after0_5]
  unfold out0_5
  rw [View.canon_unit_zero hz]
  simp only [View.ld_unit_zero (S := S256x768) hz, View.ld_unit_zero (S := S1x768) hz, View.ld_unit_zero (S := S768x4096) hz,
    View.ld_unit_zero (S := S1x2048) hz, View.ld_unit_zero (S := S2048x768) hz]
  funext j
  show Gen.k0_pay1 (F := Ideal) (Gen.k0_pay2 (iblk m c 0 t) (iblk m c 2 t) (iblk m c 1 t))
      (Gen.k0_pay3 (iblk m c 0 t) (iblk m c 2 t) (iblk m c 1 t)) (iblk m c 4 t) (iblk m c 3 t) j
      = flat m c (((cfg0.win 5).blk t).view.emb j)
  obtain ⟨p, q, rfl⟩ : ∃ (p : Fin 256) (q : Fin 768), j = ix2 p q := ⟨j 0, j 1, eq_ix2 j⟩
  have ht : t.val < 128 := Nat.lt_of_lt_of_eq t.isLt N_0
  have hrow : t.val * 256 + p.val < 32768 := by have := p.isLt; omega
  have hemb : ((cfg0.win 5).blk t).view.emb (ix2 p q)
      = (ix2 (⟨t.val * 256 + p.val, hrow⟩ : Fin 32768) q : S32768x768.Idx) := by
    obtain ⟨-, -, -, -, -, -, -, -, -, -, e0, e1⟩ := idx_facts t
    funext a; apply Fin.ext
    match a with
    | ⟨0, _⟩ => show win0_5.index t (0 : Fin 2) * 256 + 1 * p.val = t.val * 256 + p.val; rw [e0, Nat.one_mul]
    | ⟨1, _⟩ => show win0_5.index t (1 : Fin 2) * 768 + 1 * q.val = q.val; rw [e1, Nat.zero_mul, Nat.zero_add, Nat.one_mul]
  rw [hemb]
  have hb : (t.val * 256 + p.val) / 4096 < 8 := by omega
  have hdm : t.val * 256 + p.val = (t.val * 256 + p.val) / 4096 * 4096 + (t.val * 256 + p.val) % 4096 := by omega
  refine (stored_entry (a0 m c) (a1 m c) (a2 m c) (a3 m c) (a4 m c)
    (iblk m c 0 t) (iblk m c 1 t) (iblk m c 2 t) (iblk m c 3 t) (iblk m c 4 t)
    (⟨(t.val * 256 + p.val) / 4096, hb⟩ : Fin 8) (⟨(t.val * 256 + p.val) % 4096, Nat.mod_lt _ (by decide)⟩ : Fin 4096) p q
    (fun d => x_block m c H t p d (⟨(t.val * 256 + p.val) / 4096, hb⟩ : Fin 8)
      (⟨(t.val * 256 + p.val) % 4096, Nat.mod_lt _ (by decide)⟩ : Fin 4096) hdm)
    (fun d o => w₁_block m c H t d o) (fun d => g₁_block m c H t d)
    (fun k c' => w₂_block m c H t k c') (fun k => g₂_block m c H t k)).trans ?_
  unfold flat
  rw [resultArr_ix3]

/-! ## The blocks fill the array -/

/-- An index of the flat array is in point t's block iff each coordinate is in the block's range on its axis. -/
theorem mem_blk (t : Fin cfg0.N) (i : S32768x768.Idx) :
    i ∈ ((cfg0.win 5).blk t).view.set ↔ ∀ a : Fin 2, win0_5.index t a * S256x768.size a ≤ (i a).val
      ∧ (i a).val < win0_5.index t a * S256x768.size a + S256x768.size a := by
  show i ∈ ((View.whole main_v29).slice (win0_5.rect t)).set ↔ _
  rw [View.set_slice_whole, Rect.mem_set_unit]
  exact Iff.rfl

/-- Row r of the flat array lies in the block of point r / 256. -/
theorem cover (i : S32768x768.Idx) :
    ∃ t : Fin cfg0.N, (cfg0.win 5).flush t = true ∧ i ∈ ((cfg0.win 5).blk t).view.set := by
  have hi0 : (i 0).val < 32768 := idx2_lt0 i
  have hi1 : (i 1).val < 768 := idx2_lt1 i
  have hq : (i 0).val / 256 < 128 := by omega
  refine ⟨⟨(i 0).val / 256, Nat.lt_of_lt_of_eq hq N_0.symm⟩, flush0_5 _, ?_⟩
  rw [mem_blk]
  obtain ⟨-, -, -, -, -, -, -, -, -, -, e0, e1⟩ := idx_facts ⟨(i 0).val / 256, Nat.lt_of_lt_of_eq hq N_0.symm⟩
  intro a
  match a with
  | ⟨0, _⟩ =>
    show win0_5.index _ (0 : Fin 2) * 256 ≤ (i 0).val ∧ (i 0).val < win0_5.index _ (0 : Fin 2) * 256 + 256
    rw [e0]
    show (i 0).val / 256 * 256 ≤ (i 0).val ∧ (i 0).val < (i 0).val / 256 * 256 + 256
    clear e0 e1
    omega
  | ⟨1, _⟩ =>
    show win0_5.index _ (1 : Fin 2) * 768 ≤ (i 1).val ∧ (i 1).val < win0_5.index _ (1 : Fin 2) * 768 + 768
    rw [e1]
    clear e0 e1
    omega

/-- After the last point the flat array holds the flat result. -/
theorem final (c : Dev nD) (H : Entry m c) : (dats m 0 c).arrAt 5 cfg0.N = flat m c :=
  (dats m 0 c).arrAt_eq_of_cover 5 (flat m c) (fun t _ => flushed_eq m c H t) cover

/-! ## The reshape after the region, and the run -/

/-- The flat result seen as [8, 4096, 768]: entry (b, s, q) is row b · 4096 + s, column q. -/
theorem result_eq (c : Dev nD) (H : Entry m c) :
    Pipeline.afterTail₀ cfgs (dats m) 0 (V0 m) [hostOps1] c main_v30
      = resultArr (a0 m c) (a1 m c) (a2 m c) (a3 m c) (a4 m c) := by
  unfold Pipeline.afterTail₀
  show StableHlo.after hostOps1 _ (Proc.devRef .tc main_v30) = _
  after_results
  have e : Pipeline.withArrays (cfgs 0).spec c (V0 m c) (fun w => (dats m 0 c).arrAt w (cfgs 0).N)
      (Proc.devRef .tc main_v29) = flat m c :=
    (Pipeline.withArrays_arr spec0 launch0.win.arr_inj c _ _ 5).trans (final m c H)
  rw [e]
  funext i
  obtain ⟨b, s, q, rfl⟩ : ∃ (b : Fin 8) (s : Fin 4096) (q : Fin 768), i = ix3 b s q := ⟨i 0, i 1, i 2, eq_ix3 i⟩
  show shapeCast S8x4096x768 (flat m c) shapeCasts_S32768x768_S8x4096x768 (ix3 b s q) = _
  have hs : s.val < 4096 := s.isLt
  have hb : b.val < 8 := b.isLt
  refine (shapeCast_apply (flat m c) shapeCasts_S32768x768_S8x4096x768 (ix3 b s q)
    (ix2 (⟨b.val * 4096 + s.val, by omega⟩ : Fin 32768) q) ?_).trans ?_
  · rw [Shape.rowMajor_val_two, Shape.rowMajor_val_three]
    rfl
  · unfold flat
    refine congrArg (resultArr (a0 m c) (a1 m c) (a2 m c) (a3 m c) (a4 m c)) (funext fun a => Fin.ext ?_)
    match a with
    | ⟨0, _⟩ => show (b.val * 4096 + s.val) / 4096 = b.val; omega
    | ⟨1, _⟩ => show (b.val * 4096 + s.val) % 4096 = s.val; omega
    | ⟨2, _⟩ => rfl

/-- THE RUN: every weakly fair execution of the kernel program ends with the result array holding, at (b, s, q),
    the network's output q for token (b, s) computed from the argument arrays, and with the arguments unchanged —
    given what the region finds in its five input arrays. -/
theorem run (H : ∀ c : Dev nD, Entry m c) :
    θ_run (Cert.KernelIdeal.defs (F := Ideal)) (onTc (τ := Cert.KernelIdeal.τ) (Cert.KernelIdeal.main (F := Ideal))) ⟨m, fun _ => 0, ρ⟩
      (fun r => ∀ c : Dev nD,
        r.2.mem ((c.tc : Thread nD τ).loc main_v30)
            = Cert.BitLinear.resultArr (m ((c.tc : Thread nD τ).loc main_arg0)) (m ((c.tc : Thread nD τ).loc main_arg1))
                (m ((c.tc : Thread nD τ).loc main_arg2)) (m ((c.tc : Thread nD τ).loc main_arg3))
                (m ((c.tc : Thread nD τ).loc main_arg4))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)) :=
  (θ_run defs _ _).mono (fun _ h c =>
    ⟨((h c).2 main_v30 (Pipeline.mem_restRefs_of main_v30 (by decide) (by decide))).trans (result_eq m c (H c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.KerValue

end
-- ==== Proof.RefValue.lean ====
/-
  The reference program's result, read at one entry.

  Entry (b, s, c) of the result depends on token (b, s)'s row of the input and on the two weight tensors and the
  two gains, nothing else. Reading the operations one at a time from the last one backwards: the result is a sum
  over 2048 of products of a row entry and a weight entry, both in the straight-through form a + (q - a); the row is
  the RMS-normalised gated row, quantised with its own scale 127 / max(largest magnitude, floor); the gated row is
  gate · logistic(gate) · up of the first layer's outputs j and 2048 + j; and the first layer is the same
  construction over 768 on the input row. The two reductions by maximum along the last axis are folds of max from
  -∞ over that axis; the two sums over a whole weight tensor start from the zero word and run over every index of
  the tensor. The clipping bounds arrive as the integers -128, 127, -1, 1 converted to floats. Nothing is assumed of
  the inputs: every step is the operation's own definition on the extended reals.
-/
import Idealize.ShloMosaic.Lib.ValueIdx
import Idealize.ShloMosaic.Lib.Pipeline.Value
import Idealize.ShloMosaic.PureOps.Ideal.Laws
import proofs.«116928_j46377056862386_1_alg».proof.Proof.Gen.ReferenceIdeal.Read
import proofs.«116928_j46377056862386_1_alg».proof.Proof.BitLinear
import proofs.«116928_j46377056862386_1_alg».proof.Proof.Words

noncomputable section

namespace Cert.ReferenceIdeal.RefValue

open Cert.ReferenceIdeal Cert.ReferenceIdeal.Read Cert.BitLinear Idealize.ShloMosaic Idealize.ShloMosaic.ValueIdx

/-- The five argument arrays, as functions from indices to extended reals. -/
abbrev A0 := (⟨S8x4096x768, .f32⟩ : BufTy).Contents (Elt Ideal)
abbrev A1 := (⟨S4096x768, .f32⟩ : BufTy).Contents (Elt Ideal)
abbrev A2 := (⟨S768, .f32⟩ : BufTy).Contents (Elt Ideal)
abbrev A3 := (⟨S768x2048, .f32⟩ : BufTy).Contents (Elt Ideal)
abbrev A4 := (⟨S2048, .f32⟩ : BufTy).Contents (Elt Ideal)

/-! ## The clipping bounds: signed 32-bit integers converted exactly -/

theorem int_m128 : FloatOps.sitofp (F := Ideal) .f32 (4294967168#32 : BitVec 32) = ((-128 : ℝ) : EReal) :=
  Cert.Words.toInt_neg_128
theorem int_127 : FloatOps.sitofp (F := Ideal) .f32 (127#32 : BitVec 32) = ((127 : ℝ) : EReal) :=
  Cert.Words.toInt_127
theorem int_m1 : FloatOps.sitofp (F := Ideal) .f32 (4294967295#32 : BitVec 32) = ((-1 : ℝ) : EReal) :=
  Cert.Words.toInt_neg_one
theorem int_1 : FloatOps.sitofp (F := Ideal) .f32 (1#32 : BitVec 32) = ((1 : ℝ) : EReal) :=
  Cert.Words.toInt_one

/-! ## Composed index maps at explicit coordinates -/

theorem e_v1 (b : Fin 8) (s : Fin 4096) (k : Fin 768) : idx_main_v1 (ix2 b s) k = ix3 b s k := funext fun a => Fin.ext (by match a with | ⟨0, _⟩ => rfl | ⟨1, _⟩ => rfl | ⟨2, _⟩ => rfl)
theorem e_v2 (b : Fin 8) (s : Fin 4096) : idx_main_v2 (ix3 b s (0 : Fin 1)) = ix2 b s := funext fun a => Fin.ext (by match a with | ⟨0, _⟩ => rfl | ⟨1, _⟩ => rfl)
theorem e_v8 (b : Fin 8) (s : Fin 4096) (d : Fin 768) : idx_main_v8 (ix3 b s d) = ix3 b s (0 : Fin 1) := funext fun a => Fin.ext (by match a with | ⟨0, _⟩ => rfl | ⟨1, _⟩ => rfl | ⟨2, _⟩ => rfl)
theorem e_v11 (b : Fin 8) (s : Fin 4096) (d : Fin 768) : idx_main_v11 (ix3 b s d) = ix3 (0 : Fin 1) (0 : Fin 1) d := funext fun a => Fin.ext (by match a with | ⟨0, _⟩ => rfl | ⟨1, _⟩ => rfl | ⟨2, _⟩ => rfl)
theorem e_v10 (d : Fin 768) : idx_main_v10 (ix3 (0 : Fin 1) (0 : Fin 1) d) = ix1 d := funext fun a => Fin.ext (by match a with | ⟨0, _⟩ => rfl)
theorem e_v15 (b : Fin 8) (s : Fin 4096) : idx_main_v15 (ix3 b s (0 : Fin 1)) = ix2 b s := funext fun a => Fin.ext (by match a with | ⟨0, _⟩ => rfl | ⟨1, _⟩ => rfl)
theorem e_v20 (b : Fin 8) (s : Fin 4096) (d : Fin 768) : idx_main_v20 (ix3 b s d) = ix3 b s (0 : Fin 1) := funext fun a => Fin.ext (by match a with | ⟨0, _⟩ => rfl | ⟨1, _⟩ => rfl | ⟨2, _⟩ => rfl)
theorem e_v24 (b : Fin 8) (s : Fin 4096) (d : Fin 768) : idx_main_v24 (ix3 b s d) = ix3 b s (0 : Fin 1) := funext fun a => Fin.ext (by match a with | ⟨0, _⟩ => rfl | ⟨1, _⟩ => rfl | ⟨2, _⟩ => rfl)
theorem e_l41 (b : Fin 8) (s : Fin 4096) (o : Fin 4096) (k : Fin 768) : lidx_main_v41 (ix3 b s o) k = ix3 b s k := funext fun a => Fin.ext (by match a with | ⟨0, _⟩ => rfl | ⟨1, _⟩ => rfl | ⟨2, _⟩ => rfl)
theorem e_r41 (b : Fin 8) (s : Fin 4096) (o : Fin 4096) (k : Fin 768) : ridx_main_v41 (ix3 b s o) k = ix2 o k := funext fun a => Fin.ext (by match a with | ⟨0, _⟩ => rfl | ⟨1, _⟩ => rfl)
theorem e_v42 (b : Fin 8) (s : Fin 4096) (j : Fin 2048) : idx_main_v42 (ix3 b s j) = ix3 b s (upIx j) := funext fun a => Fin.ext (by match a with | ⟨0, _⟩ => rfl | ⟨1, _⟩ => rfl | ⟨2, _⟩ => rfl)
theorem e_v43 (b : Fin 8) (s : Fin 4096) (j : Fin 2048) : idx_main_v43 (ix3 b s j) = ix3 b s (gateIx j) := funext fun a => Fin.ext (by match a with | ⟨0, _⟩ => rfl | ⟨1, _⟩ => rfl | ⟨2, _⟩ => rfl)

/-! ## The first layer -/

/-- The sum of squares of row (b, s), from the zero word. -/
theorem sumsq1 (x0 : A0) (b : Fin 8) (s : Fin 4096) :
    val_main_v1 (F := Ideal) x0 (ix2 b s)
      = Ideal.ofBits .f32 0x00000000#32 + ∑ k : Fin 768, x0 (ix3 b s k) * x0 (ix3 b s k) := by
  rw [val_main_v1_apply]
  simp only [val_main_cst_apply, val_main_v0_apply, e_v1, Ideal.mulf_def, Ideal.ofBits_def]

/-- Entry d of the normalised row (b, s). -/
theorem normed1 (x0 : A0) (x2 : A2) (b : Fin 8) (s : Fin 4096) (d : Fin 768) :
    val_main_v12 (F := Ideal) x0 x2 (ix3 b s d)
      = normed K768 (fun k : Fin 768 => x0 (ix3 b s k)) (fun k : Fin 768 => x2 (ix1 k)) d := by
  rw [val_main_v12_apply, val_main_v9_apply, val_main_v8_apply, val_main_v7_apply, val_main_v6_apply, val_main_v4_apply,
    val_main_v2_apply, val_main_v3_apply, val_main_v5_apply, val_main_cst_0_apply, val_main_cst_1_apply,
    val_main_v11_apply, val_main_v10_apply, e_v8, e_v2, sumsq1, e_v11, e_v10]
  simp only [Ideal.mulf_def, Ideal.addf_def, Ideal.hostDivf_def, Ideal.hostUnary_rsqrt_def, Ideal.ofBits_def,
    Ideal.ofBits_zero_f32, zero_add]
  rfl

/-- A row index with the last coordinate put back. -/
theorem lift768 (h : S8x4096x768.Reduces [2] S8x4096) (b : Fin 8) (s : Fin 4096) (k : Fin (S8x4096x768.size 2)) :
    h.lift (ix2 b s) k = ix3 b s (⟨k.val, k.isLt⟩ : Fin 768) := by
  funext c; apply Fin.ext
  fin_cases c <;> rfl

/-- The largest magnitude in the normalised row (b, s). -/
theorem rowmax1 (x0 : A0) (x2 : A2) (b : Fin 8) (s : Fin 4096) :
    val_main_v14 (F := Ideal) x0 x2 (ix2 b s)
      = rowMax (fun d : Fin 768 => val_main_v12 (F := Ideal) x0 x2 (ix3 b s d)) := by
  unfold val_main_v14 rowMax
  rw [Host.reduce_eq_fold_single (FloatOps.maximumf (F := Ideal) (φ := .f32)) (val_main_v13 (F := Ideal) x0 x2) _ _
    (show S8x4096x768.Reduces [2] S8x4096 by decide) _ (ix2 b s), val_main_cst_2_apply, Ideal.ofBits_def, Cert.Words.ofBits_neg_inf]
  exact congrArg (fun f => Finset.fold max (⊥ : EReal) f (Finset.univ : Finset (Fin 768)))
    (funext fun k => by
      show val_main_v13 (F := Ideal) x0 x2 _ = _
      rw [lift768, val_main_v13_apply, Ideal.hostAbsf_def, Ideal.absf_def]; rfl)

/-- The scale of row (b, s): 127 over the larger of the row's largest magnitude and the floor. -/
theorem scale1 (x0 : A0) (x2 : A2) (b : Fin 8) (s : Fin 4096) :
    val_main_v19 (F := Ideal) x0 x2 (ix3 b s (0 : Fin 1))
      = rowScale K768.c K768.t (fun d : Fin 768 => val_main_v12 (F := Ideal) x0 x2 (ix3 b s d)) := by
  rw [val_main_v19_apply, val_main_v18_apply, val_main_cst_4_apply, val_main_v17_apply, val_main_v15_apply, e_v15,
    rowmax1, val_main_v16_apply, val_main_cst_3_apply]
  simp only [Ideal.mulf_def, Ideal.addf_def, Ideal.subf_def, Ideal.hostDivf_def, Ideal.maximumf_def, Ideal.minimumf_def,
    Ideal.hostUnary_rsqrt_def, Ideal.hostUnary_roundeven_def, Ideal.hostUnary_exp_def, Ideal.hostNegf_def, Ideal.negf_def,
    Ideal.hostAbsf_def, Ideal.absf_def, Ideal.ofBits_def]
  rfl

/-- Entry d of row (b, s) as the layer multiplies it: the normalised entry plus (its quantisation minus itself). -/
theorem ste1 (x0 : A0) (x2 : A2) (b : Fin 8) (s : Fin 4096) (d : Fin 768) :
    val_main_v27 (F := Ideal) x0 x2 (ix3 b s d)
      = val_main_v12 (F := Ideal) x0 x2 (ix3 b s d)
        + (rowQuant K768.lo K768.hi K768.c K768.t (fun k : Fin 768 => val_main_v12 (F := Ideal) x0 x2 (ix3 b s k)) d
            - val_main_v12 (F := Ideal) x0 x2 (ix3 b s d)) := by
  rw [val_main_v27_apply, val_main_v26_apply, val_main_v25_apply, val_main_v23_apply, val_main_call1_v4_apply,
    val_main_call1_v3_apply, val_main_c_5_apply, val_main_call1_v2_apply, val_main_call1_v1_apply,
    val_main_call1_v0_apply, val_main_c_apply, val_main_v22_apply, val_main_v21_apply, val_main_v20_apply, e_v20,
    val_main_v24_apply, e_v24, scale1, int_127, int_m128]
  simp only [Ideal.mulf_def, Ideal.addf_def, Ideal.subf_def, Ideal.hostDivf_def, Ideal.maximumf_def, Ideal.minimumf_def,
    Ideal.hostUnary_rsqrt_def, Ideal.hostUnary_roundeven_def, Ideal.hostUnary_exp_def, Ideal.hostNegf_def, Ideal.negf_def,
    Ideal.hostAbsf_def, Ideal.absf_def, Ideal.ofBits_def]
  rfl

/-- The scale of the whole first weight tensor. -/
theorem wscale1 (x1 : A1) (i : S_.Idx) :
    val_main_v32 (F := Ideal) x1 i = tensorScale 0x4A400000#32 (x1 : S4096x768.Idx → EReal) := by
  rw [val_main_v32_apply, val_main_cst_9_apply, val_main_v31_apply, val_main_v30_apply, val_main_v29_apply,
    val_main_cst_6_apply, val_main_cst_7_apply, val_main_cst_8_apply]
  simp only [val_main_v28_apply, Ideal.mulf_def, Ideal.addf_def, Ideal.subf_def, Ideal.hostDivf_def, Ideal.maximumf_def, Ideal.minimumf_def,
    Ideal.hostUnary_rsqrt_def, Ideal.hostUnary_roundeven_def, Ideal.hostUnary_exp_def, Ideal.hostNegf_def, Ideal.negf_def,
    Ideal.hostAbsf_def, Ideal.absf_def, Ideal.ofBits_def]
  rfl

/-- Entry (o, d) of the first weight tensor as the layer multiplies it. -/
theorem wste1 (x1 : A1) (o : Fin 4096) (d : Fin 768) :
    val_main_v40 (F := Ideal) x1 (ix2 o d)
      = x1 (ix2 o d)
        + (weightQuant K768.lo' K768.hi' (tensorScale 0x4A400000#32 (x1 : S4096x768.Idx → EReal)) (x1 (ix2 o d))
            - x1 (ix2 o d)) := by
  rw [val_main_v40_apply, val_main_v39_apply, val_main_v38_apply, val_main_v36_apply, val_main_call3_v4_apply,
    val_main_call3_v3_apply, val_main_c_11_apply, val_main_call3_v2_apply, val_main_call3_v1_apply,
    val_main_call3_v0_apply, val_main_c_10_apply, val_main_v35_apply, val_main_v34_apply, val_main_v33_apply,
    val_main_v37_apply, int_1, int_m1]
  simp only [wscale1, Ideal.mulf_def, Ideal.addf_def, Ideal.subf_def, Ideal.hostDivf_def, Ideal.maximumf_def, Ideal.minimumf_def,
    Ideal.hostUnary_rsqrt_def, Ideal.hostUnary_roundeven_def, Ideal.hostUnary_exp_def, Ideal.hostNegf_def, Ideal.negf_def,
    Ideal.hostAbsf_def, Ideal.absf_def, Ideal.ofBits_def]
  rfl

/-- Output o of the first layer at token (b, s). -/
theorem layer1 (x0 : A0) (x1 : A1) (x2 : A2) (b : Fin 8) (s : Fin 4096) (o : Fin 4096) :
    val_main_v41 (F := Ideal) x0 x1 x2 (ix3 b s o)
      = layerSte K768 (tensorScale 0x4A400000#32 (x1 : S4096x768.Idx → EReal))
          (fun k : Fin 768 => x0 (ix3 b s k)) (fun k : Fin 768 => x2 (ix1 k))
          (fun (o' : Fin 4096) (k : Fin 768) => x1 (ix2 o' k)) o := by
  rw [val_main_v41_apply]
  simp only [e_l41, e_r41, ste1, wste1, normed1]
  rfl

/-- Entry j of the gated row at token (b, s): the first layer's outputs j ("up") and 2048 + j ("gate") combined. -/
theorem gated (x0 : A0) (x1 : A1) (x2 : A2) (b : Fin 8) (s : Fin 4096) (j : Fin 2048) :
    val_main_v45 (F := Ideal) x0 x1 x2 (ix3 b s j)
      = swiglu (val_main_v41 (F := Ideal) x0 x1 x2 (ix3 b s (upIx j)))
          (val_main_v41 (F := Ideal) x0 x1 x2 (ix3 b s (gateIx j))) := by
  rw [val_main_v45_apply, val_main_v44_apply, val_main_call4_v5_apply, val_main_call4_v4_apply,
    val_main_call4_cst_0_apply, val_main_call4_v3_apply, val_main_call4_v2_apply, val_main_call4_cst_apply,
    val_main_call4_v1_apply, val_main_call4_v0_apply, val_main_v43_apply, val_main_v42_apply, e_v43, e_v42]
  simp only [Ideal.mulf_def, Ideal.addf_def, Ideal.subf_def, Ideal.hostDivf_def, Ideal.maximumf_def, Ideal.minimumf_def,
    Ideal.hostUnary_rsqrt_def, Ideal.hostUnary_roundeven_def, Ideal.hostUnary_exp_def, Ideal.hostNegf_def, Ideal.negf_def,
    Ideal.hostAbsf_def, Ideal.absf_def, Ideal.ofBits_def, Cert.Words.ofBits_one]
  rfl

/-! ## The second layer -/

theorem e_v47 (b : Fin 8) (s : Fin 4096) (k : Fin 2048) : idx_main_v47 (ix2 b s) k = ix3 b s k := funext fun a => Fin.ext (by match a with | ⟨0, _⟩ => rfl | ⟨1, _⟩ => rfl | ⟨2, _⟩ => rfl)
theorem e_v48 (b : Fin 8) (s : Fin 4096) : idx_main_v48 (ix3 b s (0 : Fin 1)) = ix2 b s := funext fun a => Fin.ext (by match a with | ⟨0, _⟩ => rfl | ⟨1, _⟩ => rfl)
theorem e_v54 (b : Fin 8) (s : Fin 4096) (j : Fin 2048) : idx_main_v54 (ix3 b s j) = ix3 b s (0 : Fin 1) := funext fun a => Fin.ext (by match a with | ⟨0, _⟩ => rfl | ⟨1, _⟩ => rfl | ⟨2, _⟩ => rfl)
theorem e_v57 (b : Fin 8) (s : Fin 4096) (j : Fin 2048) : idx_main_v57 (ix3 b s j) = ix3 (0 : Fin 1) (0 : Fin 1) j := funext fun a => Fin.ext (by match a with | ⟨0, _⟩ => rfl | ⟨1, _⟩ => rfl | ⟨2, _⟩ => rfl)
theorem e_v56 (j : Fin 2048) : idx_main_v56 (ix3 (0 : Fin 1) (0 : Fin 1) j) = ix1 j := funext fun a => Fin.ext (by match a with | ⟨0, _⟩ => rfl)
theorem e_v61 (b : Fin 8) (s : Fin 4096) : idx_main_v61 (ix3 b s (0 : Fin 1)) = ix2 b s := funext fun a => Fin.ext (by match a with | ⟨0, _⟩ => rfl | ⟨1, _⟩ => rfl)
theorem e_v66 (b : Fin 8) (s : Fin 4096) (j : Fin 2048) : idx_main_v66 (ix3 b s j) = ix3 b s (0 : Fin 1) := funext fun a => Fin.ext (by match a with | ⟨0, _⟩ => rfl | ⟨1, _⟩ => rfl | ⟨2, _⟩ => rfl)
theorem e_v70 (b : Fin 8) (s : Fin 4096) (j : Fin 2048) : idx_main_v70 (ix3 b s j) = ix3 b s (0 : Fin 1) := funext fun a => Fin.ext (by match a with | ⟨0, _⟩ => rfl | ⟨1, _⟩ => rfl | ⟨2, _⟩ => rfl)
theorem e_l87 (b : Fin 8) (s : Fin 4096) (c : Fin 768) (k : Fin 2048) : lidx_main_v87 (ix3 b s c) k = ix3 b s k := funext fun a => Fin.ext (by match a with | ⟨0, _⟩ => rfl | ⟨1, _⟩ => rfl | ⟨2, _⟩ => rfl)
theorem e_r87 (b : Fin 8) (s : Fin 4096) (c : Fin 768) (k : Fin 2048) : ridx_main_v87 (ix3 b s c) k = ix2 c k := funext fun a => Fin.ext (by match a with | ⟨0, _⟩ => rfl | ⟨1, _⟩ => rfl)

/-- The sum of squares of the gated row (b, s), from the zero word. -/
theorem sumsq2 (x0 : A0) (x1 : A1) (x2 : A2) (b : Fin 8) (s : Fin 4096) :
    val_main_v47 (F := Ideal) x0 x1 x2 (ix2 b s)
      = Ideal.ofBits .f32 0x00000000#32
        + ∑ k : Fin 2048, val_main_v45 (F := Ideal) x0 x1 x2 (ix3 b s k) * val_main_v45 (F := Ideal) x0 x1 x2 (ix3 b s k) := by
  rw [val_main_v47_apply]
  simp only [val_main_cst_12_apply, val_main_v46_apply, e_v47, Ideal.mulf_def, Ideal.ofBits_def]

/-- Entry j of the normalised gated row (b, s). -/
theorem normed2 (x0 : A0) (x1 : A1) (x2 : A2) (x4 : A4) (b : Fin 8) (s : Fin 4096) (j : Fin 2048) :
    val_main_v58 (F := Ideal) x0 x1 x2 x4 (ix3 b s j)
      = normed K2048 (fun k : Fin 2048 => val_main_v45 (F := Ideal) x0 x1 x2 (ix3 b s k))
          (fun k : Fin 2048 => x4 (ix1 k)) j := by
  rw [val_main_v58_apply, val_main_v55_apply, val_main_v54_apply, val_main_v53_apply, val_main_v52_apply,
    val_main_v50_apply, val_main_v48_apply, val_main_v49_apply, val_main_v51_apply, val_main_cst_13_apply,
    val_main_cst_14_apply, val_main_v57_apply, val_main_v56_apply, e_v54, e_v48, sumsq2, e_v57, e_v56]
  simp only [Ideal.mulf_def, Ideal.addf_def, Ideal.subf_def, Ideal.hostDivf_def, Ideal.maximumf_def, Ideal.minimumf_def,
    Ideal.hostUnary_rsqrt_def, Ideal.hostUnary_roundeven_def, Ideal.hostUnary_exp_def, Ideal.hostNegf_def, Ideal.negf_def,
    Ideal.hostAbsf_def, Ideal.absf_def, Ideal.ofBits_def, Ideal.ofBits_zero_f32, zero_add]
  rfl

/-- A row index of the wider array with the last coordinate put back. -/
theorem lift2048 (h : S8x4096x2048.Reduces [2] S8x4096) (b : Fin 8) (s : Fin 4096) (k : Fin (S8x4096x2048.size 2)) :
    h.lift (ix2 b s) k = ix3 b s (⟨k.val, k.isLt⟩ : Fin 2048) := by
  funext c; apply Fin.ext
  fin_cases c <;> rfl

/-- The largest magnitude in the normalised gated row (b, s). -/
theorem rowmax2 (x0 : A0) (x1 : A1) (x2 : A2) (x4 : A4) (b : Fin 8) (s : Fin 4096) :
    val_main_v60 (F := Ideal) x0 x1 x2 x4 (ix2 b s)
      = rowMax (fun j : Fin 2048 => val_main_v58 (F := Ideal) x0 x1 x2 x4 (ix3 b s j)) := by
  unfold val_main_v60 rowMax
  rw [Host.reduce_eq_fold_single (FloatOps.maximumf (F := Ideal) (φ := .f32)) (val_main_v59 (F := Ideal) x0 x1 x2 x4) _ _
    (show S8x4096x2048.Reduces [2] S8x4096 by decide) _ (ix2 b s), val_main_cst_15_apply, Ideal.ofBits_def, Cert.Words.ofBits_neg_inf]
  exact congrArg (fun f => Finset.fold max (⊥ : EReal) f (Finset.univ : Finset (Fin 2048)))
    (funext fun k => by
      show val_main_v59 (F := Ideal) x0 x1 x2 x4 _ = _
      rw [lift2048, val_main_v59_apply, Ideal.hostAbsf_def, Ideal.absf_def]; rfl)

/-- The scale of the gated row (b, s). -/
theorem scale2 (x0 : A0) (x1 : A1) (x2 : A2) (x4 : A4) (b : Fin 8) (s : Fin 4096) :
    val_main_v65 (F := Ideal) x0 x1 x2 x4 (ix3 b s (0 : Fin 1))
      = rowScale K2048.c K2048.t (fun j : Fin 2048 => val_main_v58 (F := Ideal) x0 x1 x2 x4 (ix3 b s j)) := by
  rw [val_main_v65_apply, val_main_v64_apply, val_main_cst_17_apply, val_main_v63_apply, val_main_v61_apply, e_v61,
    rowmax2, val_main_v62_apply, val_main_cst_16_apply]
  simp only [Ideal.mulf_def, Ideal.addf_def, Ideal.subf_def, Ideal.hostDivf_def, Ideal.maximumf_def, Ideal.minimumf_def,
    Ideal.hostUnary_rsqrt_def, Ideal.hostUnary_roundeven_def, Ideal.hostUnary_exp_def, Ideal.hostNegf_def, Ideal.negf_def,
    Ideal.hostAbsf_def, Ideal.absf_def, Ideal.ofBits_def]
  rfl

/-- Entry j of the gated row (b, s) as the second layer multiplies it. -/
theorem ste2 (x0 : A0) (x1 : A1) (x2 : A2) (x4 : A4) (b : Fin 8) (s : Fin 4096) (j : Fin 2048) :
    val_main_v73 (F := Ideal) x0 x1 x2 x4 (ix3 b s j)
      = val_main_v58 (F := Ideal) x0 x1 x2 x4 (ix3 b s j)
        + (rowQuant K2048.lo K2048.hi K2048.c K2048.t
              (fun k : Fin 2048 => val_main_v58 (F := Ideal) x0 x1 x2 x4 (ix3 b s k)) j
            - val_main_v58 (F := Ideal) x0 x1 x2 x4 (ix3 b s j)) := by
  rw [val_main_v73_apply, val_main_v72_apply, val_main_v71_apply, val_main_v69_apply, val_main_call6_v4_apply,
    val_main_call6_v3_apply, val_main_c_19_apply, val_main_call6_v2_apply, val_main_call6_v1_apply,
    val_main_call6_v0_apply, val_main_c_18_apply, val_main_v68_apply, val_main_v67_apply, val_main_v66_apply, e_v66,
    val_main_v70_apply, e_v70, scale2, int_127, int_m128]
  simp only [Ideal.mulf_def, Ideal.addf_def, Ideal.subf_def, Ideal.hostDivf_def, Ideal.maximumf_def, Ideal.minimumf_def,
    Ideal.hostUnary_rsqrt_def, Ideal.hostUnary_roundeven_def, Ideal.hostUnary_exp_def, Ideal.hostNegf_def, Ideal.negf_def,
    Ideal.hostAbsf_def, Ideal.absf_def, Ideal.ofBits_def]
  rfl

/-- The scale of the whole second weight tensor. -/
theorem wscale2 (x3 : A3) (i : S_.Idx) :
    val_main_v78 (F := Ideal) x3 i = tensorScale 0x49C00000#32 (x3 : S768x2048.Idx → EReal) := by
  rw [val_main_v78_apply, val_main_cst_23_apply, val_main_v77_apply, val_main_v76_apply, val_main_v75_apply,
    val_main_cst_20_apply, val_main_cst_21_apply, val_main_cst_22_apply]
  simp only [val_main_v74_apply, Ideal.mulf_def, Ideal.addf_def, Ideal.subf_def, Ideal.hostDivf_def, Ideal.maximumf_def, Ideal.minimumf_def,
    Ideal.hostUnary_rsqrt_def, Ideal.hostUnary_roundeven_def, Ideal.hostUnary_exp_def, Ideal.hostNegf_def, Ideal.negf_def,
    Ideal.hostAbsf_def, Ideal.absf_def, Ideal.ofBits_def]
  rfl

/-- Entry (c, k) of the second weight tensor as the layer multiplies it. -/
theorem wste2 (x3 : A3) (c : Fin 768) (k : Fin 2048) :
    val_main_v86 (F := Ideal) x3 (ix2 c k)
      = x3 (ix2 c k)
        + (weightQuant K2048.lo' K2048.hi' (tensorScale 0x49C00000#32 (x3 : S768x2048.Idx → EReal)) (x3 (ix2 c k))
            - x3 (ix2 c k)) := by
  rw [val_main_v86_apply, val_main_v85_apply, val_main_v84_apply, val_main_v82_apply, val_main_call8_v4_apply,
    val_main_call8_v3_apply, val_main_c_25_apply, val_main_call8_v2_apply, val_main_call8_v1_apply,
    val_main_call8_v0_apply, val_main_c_24_apply, val_main_v81_apply, val_main_v80_apply, val_main_v79_apply,
    val_main_v83_apply, int_1, int_m1]
  simp only [wscale2, Ideal.mulf_def, Ideal.addf_def, Ideal.subf_def, Ideal.hostDivf_def, Ideal.maximumf_def, Ideal.minimumf_def,
    Ideal.hostUnary_rsqrt_def, Ideal.hostUnary_roundeven_def, Ideal.hostUnary_exp_def, Ideal.hostNegf_def, Ideal.negf_def,
    Ideal.hostAbsf_def, Ideal.absf_def, Ideal.ofBits_def]
  rfl

/-! ## The result at one entry -/

/-- Entry (b, s, c) of the reference's result is the two-layer network with the gate between, each quantised
    value entering through the straight-through form, applied to token (b, s)'s row. -/
theorem ref_at (x0 : (⟨S8x4096x768, .f32⟩ : BufTy).Contents (Elt Ideal)) (x1 : (⟨S4096x768, .f32⟩ : BufTy).Contents (Elt Ideal))
    (x2 : (⟨S768, .f32⟩ : BufTy).Contents (Elt Ideal)) (x3 : (⟨S768x2048, .f32⟩ : BufTy).Contents (Elt Ideal))
    (x4 : (⟨S2048, .f32⟩ : BufTy).Contents (Elt Ideal)) (b : Fin 8) (s : Fin 4096) (c : Fin 768) :
    Cert.ReferenceIdeal.Read.val_main_v87 (F := Ideal) x0 x1 x2 x3 x4 (ValueIdx.ix3 b s c)
      = Cert.BitLinear.steAt x0 x1 x2 x3 x4 b s c := by
  rw [val_main_v87_apply]
  simp only [e_l87, e_r87, ste2, wste2, normed2, gated, layer1]
  rfl

end Cert.ReferenceIdeal.RefValue

end
-- ==== Proof.LibFiniteAll.lean ====
/-
  A printed "every entry is finite" test, read back on the extended reals.

  The test `all(|x| < +inf)` prints as: the absolute value of every entry, compared (ordered, less-than) with the
  broadcast of the single-precision word of plus infinity, and the resulting array of truth values reduced by `and`
  into a result that has one index. On the extended reals the absolute value is `max x (-x)` and the word
  0x7F800000 (sign 0, exponent field all ones, mantissa 0) denotes plus infinity. So an entry passes the comparison
  exactly when it is neither plus nor minus infinity, that is, when it is a real number; and a reduction by `and`
  that came out 1 met a 1 at every entry.
-/
import Idealize.ShloMosaic.PureOps.Ideal
import Idealize.ShloMosaic.Lib.ReduceAll

namespace Cert.FiniteAll

open Idealize.ShloMosaic

/-- The single-precision word with sign 0, exponent field all ones and mantissa 0 denotes plus infinity. -/
theorem ofBits_inf_f32 : Ideal.ofBits .f32 0x7F800000#32 = (⊤ : EReal) := by
  simp [Ideal.ofBits, Ideal.ieee]

/-- An extended real whose absolute value `max x (-x)` lies below plus infinity is a real number: plus infinity
    is its own absolute value, and the negative of minus infinity is plus infinity. -/
theorem exists_real_of_abs_lt_top {x : EReal} (h : max x (-x) < ⊤) : ∃ r : ℝ, x = (r : EReal) := by
  induction x using EReal.rec with
  | bot => simp at h
  | coe r => exact ⟨r, rfl⟩
  | top => simp at h

/-- One entry: if the ordered comparison `|x| < +inf` answers 1, then `x` is a real number. -/
theorem exists_real_of_cmp (x : Ideal .f32)
    (h : FloatOps.cmpf .olt (FloatOps.hostAbsf x) (FloatOps.ofBits (F := Ideal) .f32 0x7F800000#32) = 1#1) :
    ∃ r : ℝ, (x : EReal) = (r : EReal) := by
  have h' : Ideal.cmp .olt (max (x : EReal) (-(x : EReal))) (Ideal.ofBits .f32 0x7F800000#32) = 1#1 := h
  rw [ofBits_inf_f32] at h'
  unfold Ideal.cmp at h'
  by_cases hlt : max (x : EReal) (-(x : EReal)) < ⊤
  · exact exists_real_of_abs_lt_top hlt
  · simp [hlt] at h'

/-- THE ARRAY FACT: if `|x| < +inf`, taken entry by entry against the broadcast word of plus infinity and reduced
    by `and` into a result with one index, is 1, then every entry of `x` is a real number. The shape of `x`, the
    reduced axes, the shape the constant is broadcast from and the reduction's starting value are arbitrary. -/
theorem all_real_of_reduce_and {s t u z : Shape} {axes : List (Fin s.rank)} [Subsingleton t.Idx]
    (x : FVec Ideal s .f32) (dims : Fin z.rank → Fin s.rank) (hb : z.BroadcastsInDim s dims)
    (init : u.Idx → BitVec 1) (hr : s.ReducesTo axes t) (hu : 0 < u.numel) (j : t.Idx)
    (e : Host.reduce IntOp.andi
          (cmpf .olt (Host.absf x) (broadcastInDim s dims hb (constant (F := Ideal) z .f32 0x7F800000#32)))
          init hr hu j = 1#1)
    (i : s.Idx) : ∃ r : ℝ, (x i : EReal) = (r : EReal) :=
  exists_real_of_cmp (x i) (Host.reduce_andi_all _ init hr hu j e i)

end Cert.FiniteAll
-- ==== Proof.FiniteInputs.lean ====
/-
  The precondition, read back: every entry of the five argument arrays is a real number.

  The printed test is the conjunction of five clauses, one per array, each of the form all(|x| < +inf): the
  absolute value of every entry compared with plus infinity, and the truth values reduced by "and" into a single
  answer. The whole test answers 1 exactly when each clause does, and a clause that answers 1 makes every entry of
  its array neither plus nor minus infinity, hence a real number.
-/
import Idealize.ShloMosaic.Lib.ValueIdx
import Idealize.ShloMosaic.Lib.Affine
import Idealize.ShloMosaic.Lib.ReduceAll
import proofs.«116928_j46377056862386_1_alg».proof.Proof.Gen.Pre_finite_inputs
import proofs.«116928_j46377056862386_1_alg».proof.Proof.LibFiniteAll
import proofs.«116928_j46377056862386_1_alg».proof.Proof.LibRealSum

namespace Cert.FiniteInputs

open Idealize.ShloMosaic Cert.Pre_finite_inputs

/-- The shape with no axes has exactly one index. -/
instance : Subsingleton S_.Idx := ⟨fun _ _ => funext fun d => d.elim0⟩

/-- If the printed test answers 1 on five arrays of extended reals, every entry of each array is a real number. -/
theorem real_of_pre (a0 : (⟨3, ![8, 4096, 768]⟩ : Shape).Idx → EReal) (a1 : (⟨2, ![4096, 768]⟩ : Shape).Idx → EReal)
    (a2 : (⟨1, ![768]⟩ : Shape).Idx → EReal) (a3 : (⟨2, ![768, 2048]⟩ : Shape).Idx → EReal)
    (a4 : (⟨1, ![2048]⟩ : Shape).Idx → EReal)
    (h : Cert.Pre_finite_inputs.fn (F := Ideal) a0 a1 a2 a3 a4 = (fun _ => 1#1)) :
    (∀ i, Cert.RealSum.IsReal (a0 i)) ∧ (∀ i, Cert.RealSum.IsReal (a1 i)) ∧ (∀ i, Cert.RealSum.IsReal (a2 i))
      ∧ (∀ i, Cert.RealSum.IsReal (a3 i)) ∧ (∀ i, Cert.RealSum.IsReal (a4 i)) := by
  -- the one answer, as the "and" of the five clauses' answers, nested to the left
  have e := congrFun h ValueIdx.ix0
  dsimp only [fn, fn_part1] at e
  obtain ⟨e0123, e4⟩ := IntOp.andi_eq_one.1 e
  obtain ⟨e012, e3⟩ := IntOp.andi_eq_one.1 e0123
  obtain ⟨e01, e2⟩ := IntOp.andi_eq_one.1 e012
  obtain ⟨e0, e1⟩ := IntOp.andi_eq_one.1 e01
  exact ⟨fun i => Cert.FiniteAll.all_real_of_reduce_and a0 _ _ _ _ _ _ e0 i,
    fun i => Cert.FiniteAll.all_real_of_reduce_and a1 _ _ _ _ _ _ e1 i,
    fun i => Cert.FiniteAll.all_real_of_reduce_and a2 _ _ _ _ _ _ e2 i,
    fun i => Cert.FiniteAll.all_real_of_reduce_and a3 _ _ _ _ _ _ e3 i,
    fun i => Cert.FiniteAll.all_real_of_reduce_and a4 _ _ _ _ _ _ e4 i⟩

end Cert.FiniteInputs
-- ==== Proof.lean ====
/-
  A fused two-layer gated MLP with quantised linear layers, against its plain reference: the two programs end with
  the same array over the extended reals whenever every input is finite.

  Both programs RMS-normalise each token's row, scale it by a gain, fake-quantise it to eight bits with one scale per
  row, and multiply it by weights fake-quantised to three levels with one scale per tensor; the 4096 outputs are
  paired and gated, `gate · logistic(gate) · up`, and the 2048 gated numbers go through a second such layer. The
  kernel does this on blocks of 256 tokens with both weight matrices resident, after the host has quantised and
  transposed the weights and flattened the tokens to [32768, 768], and the host restores the shape afterwards. The
  reference works on the whole [8, 4096, 768] array. Sums, products and maxima are the same finite sums, products
  and folds on both sides whatever the tiling; narrowing to sixteen bits is the identity; the kernel's one-operation
  logistic is the reference's `1 / (1 + exp(-x))` by definition; the clipping bounds are the same numbers, float words
  on one side and converted integers on the other.

  The one real difference: the reference feeds each quantised value `q` of an unquantised `a` into its products as
  `a + (q - a)`. That is `q` exactly when `a` is a real number — at `a = +∞` it is `-∞` — so the precondition is
  used: finite inputs make every normalised row, every quantised row, the first layer's outputs and the gated row
  real numbers (a sum of squares over a positive count plus a positive offset is positive, so its inverse root is
  real; a fold of maxima of reals over a nonempty row is real and, floored at a positive number, gives a positive
  scale; rounding and clipping keep reals real; dividing by a nonzero real keeps reals real).

  The pieces: `BitLinear` states the arithmetic once for abstract index types, directly and through the
  `a + (q - a)` form; `BitLinearLaw` proves the two forms equal on real inputs; `KerBody` reads the kernel body at one
  entry of a block, `KerHost` what the kernel's arrays hold on entry, `KerValue` assembles the blocks into the kernel's
  result; `RefValue` reads the reference at one entry; `FiniteInputs` turns the precondition into "every entry is
  real". The frames of the two kernel programs are the generated ones; the reference's is its generated run.
-/
import proofs.«116928_j46377056862386_1_alg».proof.Defs
import proofs.«116928_j46377056862386_1_alg».proof.Proof.Gen.Kernel
import proofs.«116928_j46377056862386_1_alg».proof.Proof.Gen.Kernel.Frame
import proofs.«116928_j46377056862386_1_alg».proof.Proof.Gen.KernelIdeal
import proofs.«116928_j46377056862386_1_alg».proof.Proof.Gen.KernelIdeal.Frame
import proofs.«116928_j46377056862386_1_alg».proof.Proof.Gen.ReferenceIdeal
import proofs.«116928_j46377056862386_1_alg».proof.Proof.Gen.ReferenceIdeal.Run
import proofs.«116928_j46377056862386_1_alg».proof.Proof.Gen.ReferenceIdeal.Read
import proofs.«116928_j46377056862386_1_alg».proof.Proof.Gen.Pre_finite_inputs
import proofs.«116928_j46377056862386_1_alg».proof.Proof.BitLinear
import proofs.«116928_j46377056862386_1_alg».proof.Proof.BitLinearLaw
import proofs.«116928_j46377056862386_1_alg».proof.Proof.KerHost
import proofs.«116928_j46377056862386_1_alg».proof.Proof.KerValue
import proofs.«116928_j46377056862386_1_alg».proof.Proof.RefValue
import proofs.«116928_j46377056862386_1_alg».proof.Proof.FiniteInputs
import Idealize.ShloMosaic.Adequacy
import Idealize.ShloMosaic.Init

noncomputable section

namespace Cert.Proof

open Idealize.ShloMosaic Idealize.ShloMosaic.TcCoe Idealize.SL.Sem Idealize.ShloMosaic.ValueIdx

theorem frame_k : Cert.frame_Kernel := fun m ρ _ => Cert.Kernel.Gen.frame m ρ

theorem frame_ki : Cert.frame_KernelIdeal := fun m ρ _ => Cert.KernelIdeal.Gen.frame m ρ

/-- The reference launches no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The kernel ends at the network's result with products taken directly; the reference ends at the same network
    through `a + (q - a)`, which on inputs the precondition makes real is the same number entry by entry. -/
theorem algebraic : Cert.algebraic_KernelIdeal_ReferenceIdeal := by
  intro m ρ m' ρ' hpre hagree
  refine ⟨_, Cert.KernelIdeal.KerValue.run m ρ (fun c =>
    ⟨Cert.KernelIdeal.HostSide.tokens m c, Cert.KernelIdeal.HostSide.weights₁ m c, Cert.KernelIdeal.HostSide.gain₁ m c,
      Cert.KernelIdeal.HostSide.weights₂ m c, Cert.KernelIdeal.HostSide.gain₂ m c⟩), ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4⟩ := Cert.FiniteInputs.real_of_pre _ _ _ _ _ (hpre c)
  rw [Cert.ReferenceIdeal.Read.val_main_v87_eq, (hagree c).1, (hagree c).2.1, (hagree c).2.2.1, (hagree c).2.2.2.1,
    (hagree c).2.2.2.2]
  funext i
  obtain ⟨b, s, d, rfl⟩ : ∃ (b : Fin 8) (s : Fin 4096) (d : Fin 768), i = ix3 b s d := ⟨i 0, i 1, i 2, eq_ix3 i⟩
  rw [Cert.ReferenceIdeal.RefValue.ref_at]
  exact Cert.BitLinear.steAt_eq_directAt _ _ _ _ _ h0 h1 h2 h3 h4 b s d

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
